-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S4000x512 : Shape := ⟨2, ![4000, 512]⟩
abbrev S4000x1 : Shape := ⟨2, ![4000, 1]⟩
abbrev S4000x16 : Shape := ⟨2, ![4000, 16]⟩
abbrev S3300000x16 : Shape := ⟨2, ![3300000, 16]⟩
abbrev S1x16 : Shape := ⟨2, ![1, 16]⟩
abbrev S100000x7 : Shape := ⟨2, ![100000, 7]⟩
abbrev S5000x16 : Shape := ⟨2, ![5000, 16]⟩
abbrev S5000x1 : Shape := ⟨2, ![5000, 1]⟩
abbrev S5000x7 : Shape := ⟨2, ![5000, 7]⟩
abbrev S3300000x7 : Shape := ⟨2, ![3300000, 7]⟩
abbrev S1x7 : Shape := ⟨2, ![1, 7]⟩
abbrev S5000 : Shape := ⟨1, ![5000]⟩

abbrev nBuf : Space → Nat
  | .hbm => 62
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x16, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000x16, .f32⟩
  | .hbm, ⟨41, _⟩ => ⟨S_, .f32⟩
  | .hbm, ⟨42, _⟩ => ⟨S100000x16, .f32⟩
  | .hbm, ⟨43, _⟩ => ⟨S3300000x1, .i32⟩
  | .hbm, ⟨44, _⟩ => ⟨S100000x16, .f32⟩
  | .hbm, ⟨45, _⟩ => ⟨S1x16, .f32⟩
  | .hbm, ⟨46, _⟩ => ⟨S100000x7, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x7, .f32⟩
  | .hbm, ⟨56, _⟩ => ⟨S_, .f32⟩
  | .hbm, ⟨57, _⟩ => ⟨S100000x7, .f32⟩
  | .hbm, ⟨58, _⟩ => ⟨S3300000x1, .i32⟩
  | .hbm, ⟨59, _⟩ => ⟨S100000x7, .f32⟩
  | .hbm, ⟨60, _⟩ => ⟨S1x7, .f32⟩
  | .hbm, ⟨61, _⟩ => ⟨S100000x7, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x1, .f32⟩
  | .local _ .vmem, ⟨4, _⟩ => ⟨S4000x1, .f32⟩
  | .local _ .vmem, ⟨5, _⟩ => ⟨S4000x16, .f32⟩
  | .local _ .vmem, ⟨6, _⟩ => ⟨S4000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x7, .f32⟩
  | .local _ .vmem, ⟨13, _⟩ => ⟨S5000x7, .f32⟩
  | .local _ .vmem, ⟨14, _⟩ => ⟨S5000x7, .f32⟩
  | .local _ .vmem, ⟨15, _⟩ => ⟨S5000x7, .f32⟩
  | .local _ .vmem, ⟨16, _⟩ => ⟨S5000x7, .f32⟩
  | .local _ .vmem, ⟨17, _⟩ => ⟨S5000x1, .f32⟩
  | .local _ .vmem, ⟨18, _⟩ => ⟨S5000x1, .f32⟩
  | .local _ .vmem, ⟨19, _⟩ => ⟨S1x7, .f32⟩
  | .local _ .vmem, ⟨20, _⟩ => ⟨S5000x7, .f32⟩
  | .local _ .vmem, ⟨21, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x7 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  bcast_S_S100000x16 : S_.BroadcastsInDim S100000x16 (![] : Fin 0 → Fin S100000x16.rank)
  shapeCasts_S16_S1x16 : S16.ShapeCasts S1x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x7_S16x7_0_0 : ∀ a, (![0, 0] : Fin 2 → Nat) a + S16x7.size a ≤ S16x7.size a
  h_S16x7 : 0 < S16x7.numel
  broadcasts_S5000x1_S5000x7 : S5000x1.Broadcasts S5000x7
  inb_S5000x7_S5000x7_0_0 : ∀ a, (![0, 0] : Fin 2 → Nat) a + S5000x7.size a ≤ S5000x7.size a
  h_S5000x7 : 0 < S5000x7.numel
  bcast_S_S100000x7 : S_.BroadcastsInDim S100000x7 (![] : Fin 0 → Fin S100000x7.rank)
  shapeCasts_S7_S1x7 : S7.ShapeCasts S1x7
  shapeCasts_S5000x7_S5000x7 : S5000x7.ShapeCasts S5000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  reduces_S5000x7_S5000 : S5000x7.Reduces [1] S5000
  shapeCasts_S5000_S5000x1 : S5000.ShapeCasts S5000x1
  scatter_S100000_S3300000x1_S3300000_n_0_0_1_wf : ScatterDims.WF S100000 S3300000x1 S3300000 [] [0] [0] 1
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x7_S5000x7_1_0_0_1_n_n_wf : DotDims.WF S5000x16 S16x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S100000x16.size a
  hwx0_3 : ∀ i : grid0.Coords, EltTy.bits .f32 = 32 ∨ (Rect.block (s := S100000x16) S4000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x7.size a ≤ S16x7.size a
  hwx1_3 : ∀ i : grid1.Coords, EltTy.bits .f32 = 32 ∨ (Rect.block (s := S16x7) S16x7.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x7.size a ≤ S100000x7.size a
  hwx1_4 : ∀ i : grid1.Coords, EltTy.bits .f32 = 32 ∨ (Rect.block (s := S100000x7) S5000x7.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x7.size a ≤ S100000x7.size a
  hwx2_0 : ∀ i : grid2.Coords, EltTy.bits .f32 = 32 ∨ (Rect.block (s := S100000x7) S5000x7.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x7.size a ≤ S100000x7.size a
  hwx2_3 : ∀ i : grid2.Coords, EltTy.bits .f32 = 32 ∨ (Rect.block (s := S100000x7) S5000x7.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x7.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x7, .f32⟩
  | .hbm, ⟨73, _⟩ => ⟨S3300000x1, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x7, .f32⟩
  | .hbm, ⟨83, _⟩ => ⟨S3300000x7, .f32⟩
  | .hbm, ⟨84, _⟩ => ⟨S3300000x7, .f32⟩
  | .hbm, ⟨85, _⟩ => ⟨S_, .f32⟩
  | .hbm, ⟨86, _⟩ => ⟨S100000x7, .f32⟩
  | .hbm, ⟨87, _⟩ => ⟨S3300000x1, .i32⟩
  | .hbm, ⟨88, _⟩ => ⟨S100000x7, .f32⟩
  | .hbm, ⟨89, _⟩ => ⟨S1x7, .f32⟩
  | .hbm, ⟨90, _⟩ => ⟨S100000x7, .f32⟩
  | .hbm, ⟨91, _⟩ => ⟨S100000x7, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x7, .f32⟩
  | .hbm, ⟨99, _⟩ => ⟨S100000x7, .f32⟩
  | .hbm, ⟨100, _⟩ => ⟨S100000x7, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x7, .f32⟩
  | .hbm, ⟨106, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel's run with its result named.

  @main is eight segments: three stretches of host operations, the first projection's grid, the gather and
  scatter-add, the second projection's grid, the second gather and scatter-add, and the output stage's grid.
  The generated frame module folds the buffer contents through these segments, boundary by boundary, ending at
  `W8`; every weakly fair execution ends with each unscoped buffer at that fold. Here the run is stated with the
  result buffer read off the fold (the generated frame statement keeps only the arguments).
-/
import proofs.«181120_j12592844112334_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.ValueRun

end
-- ==== Proof.Spec.lean ====
/-
  The two-layer graph convolution, stage by stage, as pure functions on the extended reals.

  Nodes are rows; an edge list gives for each edge a source row (read clamped into the node range) and a
  destination word (an edge whose destination, read as a signed integer, is not a node is dropped).
  Every node carries a scale `dv` (its inverse square-root degree, as a one-column matrix).

  * `proj1`   : (x · W₁) with row p scaled by dv p              — the first projection, scaled on the source side
  * `gatherAdd`: row d of the result is the sum, over the edges whose destination is d, of the source's row
  * `proj2`   : relu (dv p · a p + b₁) · W₂, row p scaled by dv p — destination scale, bias, relu, second projection
  * `logits`  : dv p · a p + b₂
  * `logSoftmaxRow` : z − max z − log Σ exp (z − max z) along a row of seven entries
-/
import Idealize.ShloMosaic.PureOps.Ideal
import Idealize.ShloMosaic.Lib.ValueIdx

noncomputable section

namespace Cert.Gcn

open Idealize.ShloMosaic Idealize.ShloMosaic.ValueIdx
open scoped BigOperators

/-- An r × c matrix of extended reals, indexed as the programs index a rank-2 array. -/
abbrev Mat (r c : ℕ) := (⟨2, ![r, c]⟩ : Shape).Idx → EReal

/-- The node a start word names when a row is gathered: the word read signed, clamped into `[0, n − 1]`. -/
def clampRow (n : ℕ) (hn : 0 < n) (w : BitVec 32) : Fin n := ⟨min w.toInt.toNat (n - 1), by omega⟩

/-- First projection: entry (p, q) of x · W₁, times the scale of row p. -/
def proj1 (x : Mat 100000 512) (w : Mat 512 16) (dv : Mat 100000 1) (p : Fin 100000) (q : Fin 16) : EReal :=
  (∑ k : Fin 512, x (ix2 p k) * w (ix2 k q)) * dv (ix2 p 0)

/-- Gather the source rows and add them up per destination: entry (d, q) is the sum over the edges `e` whose
    destination word, read signed, is `d`, of the entry (clamped source of e, q) of `h`. -/
def gatherAdd {D : ℕ} (h : Mat 100000 D) (srcW dstW : (⟨2, ![3300000, 1]⟩ : Shape).Idx → BitVec 32)
    (d : Fin 100000) (q : Fin D) : EReal :=
  ∑ e : Fin 3300000, if (dstW (ix2 e 0)).toInt = (d.val : ℤ) then
    h (ix2 (clampRow 100000 (by decide) (srcW (ix2 e 0))) q) else 0

/-- The hidden layer after the first aggregation: relu (dv p · a (p, k) + b₁ k). -/
def hidden (a : Mat 100000 16) (dv : Mat 100000 1) (b : Mat 1 16) (p : Fin 100000) (k : Fin 16) : EReal :=
  max (dv (ix2 p 0) * a (ix2 p k) + b (ix2 0 k)) 0

/-- Second projection: entry (p, q) of hidden · W₂, times the scale of row p. -/
def proj2 (a : Mat 100000 16) (dv : Mat 100000 1) (b : Mat 1 16) (w : Mat 16 7) (p : Fin 100000) (q : Fin 7) : EReal :=
  (∑ k : Fin 16, hidden a dv b p k * w (ix2 k q)) * dv (ix2 p 0)

/-- The logits: dv p · a (p, q) + b₂ q. -/
def logits (a : Mat 100000 7) (dv : Mat 100000 1) (b : Mat 1 7) (p : Fin 100000) (q : Fin 7) : EReal :=
  dv (ix2 p 0) * a (ix2 p q) + b (ix2 0 q)

/-- The largest of a row's seven entries (from the bottom element). -/
def rowMax (z : Fin 7 → EReal) : EReal := (Finset.univ : Finset (Fin 7)).fold max ⊥ z

/-- Log-softmax along a row of seven: (z q − max z) − log Σ_j exp (z j − max z). -/
def logSoftmaxRow (z : Fin 7 → EReal) (q : Fin 7) : EReal :=
  (z q - rowMax z) - Ideal.log (∑ j : Fin 7, Ideal.exp (z j - rowMax z))

/-- The output stage: log-softmax of the logits' row p, at column q. -/
def outStage (a : Mat 100000 7) (dv : Mat 100000 1) (b : Mat 1 7) (p : Fin 100000) (q : Fin 7) : EReal :=
  logSoftmaxRow (fun j => logits a dv b p j) q

end Cert.Gcn

end
-- ==== Proof.LibStretch.lean ====
/-
  Two general facts about a straight line of array operations run from some contents of the buffers.
  A line cut in two runs its second part from what its first part leaves — so a long program is read stretch by stretch,
  each stretch for arbitrary starting contents.  And contents carried to a typed reference's buffer type and back along
  the same type equation are unchanged — so the operations of a module-local function (which carry every value through
  its typed reference) compose exactly as a program's own operations do, with no transport left between them.
-/
import Idealize.ShloMosaic.Lib.StableHlo.Run

namespace Cert.LibStretch

open Idealize.ShloMosaic Idealize.ShloMosaic.StableHlo

/-- Running `l₁ ++ l₂` from `V` is running `l₂` from what `l₁` leaves. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

/-- To the buffer's type and back is the identity. -/
theorem ofBuf_toBuf {sig : RefSig} {Val : EltTy → Type} {T : BufTy} (x : TRef sig T) (v : T.Contents Val) :
    x.ofBuf (x.toBuf v) = v := by
  rcases x with ⟨r, h, h2, h3⟩
  subst h
  rfl

/-- From the buffer's type and back likewise. -/
theorem toBuf_ofBuf {sig : RefSig} {Val : EltTy → Type} {T : BufTy} (x : TRef sig T) (v : x.ref.ty.Contents Val) :
    x.toBuf (x.ofBuf v) = v := by
  rcases x with ⟨r, h, h2, h3⟩
  subst h
  rfl

end Cert.LibStretch
-- ==== Proof.KernelGlue.lean ====
/-
  The idealized kernel's result, read off the boundary contents of its run.

  Between the three grids @main runs host operations: before the first, the edge list is cut into source and
  destination words (with a self loop per node appended), every node's degree is counted by a scatter-add of ones
  and turned into its scale (one over the square root of the degree, zero for an isolated node), kept as a column;
  between the grids the projected rows are gathered at the edges' sources and added up per destination.
  Each boundary's contents are the host operations' pure terms of the previous boundary's; a grid's output array is
  its stage function of the arrays it found. Composing these gives the result as
  output stage ∘ aggregate ∘ second projection ∘ aggregate ∘ first projection.
-/
import proofs.«181120_j12592844112334_2_alg».proof.Proof.Gen.KernelIdeal.Frame
import Idealize.ShloMosaic.PureOps.Ideal
import Idealize.ShloMosaic.Lib.StableHlo.Run
import proofs.«181120_j12592844112334_2_alg».proof.Proof.Spec
import proofs.«181120_j12592844112334_2_alg».proof.Proof.LibStretch

set_option maxRecDepth 16384

noncomputable section

namespace Cert.KernelIdeal.Glue

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

/-! ## The edge words, the degrees and the scales, as the first stretches compute them -/

/-- The source words: the edge list's first row followed by the nodes' own numbers (the self loops). -/
def srcVec : (⟨S3300000, .i32⟩ : BufTy).Contents (Elt Ideal) :=
  concatenate S3300000 0 [⟨S3200000, shapeCast S3200000 (extractStridedSlice S1x3200000 ![0, 0] (m ((c.tc : Thread nD τ).loc main_arg1)) slices_S2x3200000_S1x3200000_0_0) shapeCasts_S1x3200000_S3200000⟩, ⟨S100000, iotaInDim S100000 32 0⟩] concatenates_S3200000_S100000_S3300000_d0

/-- The destination words: the edge list's second row followed by the nodes' own numbers. -/
def dstVec : (⟨S3300000, .i32⟩ : BufTy).Contents (Elt Ideal) :=
  concatenate S3300000 0 [⟨S3200000, shapeCast S3200000 (extractStridedSlice S1x3200000 ![1, 0] (m ((c.tc : Thread nD τ).loc main_arg1)) slices_S2x3200000_S1x3200000_1_0) shapeCasts_S1x3200000_S3200000⟩, ⟨S100000, iotaInDim S100000 32 0⟩] concatenates_S3200000_S100000_S3300000_d0

/-- The gathers' start words: a negative source word counted from the end, as a one-column array. -/
def srcIdx : (⟨S3300000x1, .i32⟩ : BufTy).Contents (Elt Ideal) :=
  broadcastInDim S3300000x1 ![0] bcast_S3300000_S3300000x1_0
    (select (cmpi .slt (srcVec m c) (broadcastInDim S3300000 ![] bcast_S_S3300000 (constantI S_ 32 0#32)))
      (addi (srcVec m c) (broadcastInDim S3300000 ![] bcast_S_S3300000 (constantI S_ 32 100000#32))) (srcVec m c))

/-- The scatters' index words: the destination words as a one-column array. -/
def dstIdx : (⟨S3300000x1, .i32⟩ : BufTy).Contents (Elt Ideal) :=
  broadcastInDim S3300000x1 ![0] bcast_S3300000_S3300000x1_0 (dstVec m c)

/-- Every node's degree: ones added up per destination. -/
def degVec : FVec Ideal S100000 .f32 :=
  Host.scatterAdd (F := Ideal) scatter_S100000_S3300000x1_S3300000_n_0_0_1
    (broadcastInDim S100000 ![] bcast_S_S100000 (constant (F := Ideal) S_ .f32 0x00000000#32)) (dstIdx m c)
    (broadcastInDim S3300000 ![] bcast_S_S3300000 (constant (F := Ideal) S_ .f32 0x3F800000#32))

/-- Every node's scale: one over the square root of its degree (taken at least one), zero where the degree is not positive. -/
def dinvVec : FVec Ideal S100000 .f32 :=
  select (cmpf (F := Ideal) .ogt (degVec m c) (broadcastInDim S100000 ![] bcast_S_S100000 (constant (F := Ideal) S_ .f32 0x00000000#32)))
    (Host.rsqrt (F := Ideal) (maximumf (F := Ideal) (degVec m c) (broadcastInDim S100000 ![] bcast_S_S100000 (constant (F := Ideal) S_ .f32 0x3F800000#32))))
    (broadcastInDim S100000 ![] bcast_S_S100000 (id (constant (F := Ideal) S_ .f32 0x00000000#32)))

/-- The scales as the one-column array the grids read. -/
def dinvCol : FVec Ideal S100000x1 .f32 :=
  shapeCast S100000x1 (dinvVec m c) shapeCasts_S100000_S100000x1

theorem W1_v3 : W1 (F := Ideal) m ρ c (Proc.devRef .tc main_v3) = srcVec m c := by
  show StableHlo.after hostOps0 (W0 m ρ c) (Proc.devRef .tc main_v3) = _
  after_results
  rfl

theorem W1_v6 : W1 (F := Ideal) m ρ c (Proc.devRef .tc main_v6) = dstVec m c := by
  show StableHlo.after hostOps0 (W0 m ρ c) (Proc.devRef .tc main_v6) = _
  after_results
  rfl

theorem W1_v12 : W1 (F := Ideal) m ρ c (Proc.devRef .tc main_v12)
    = cmpf (F := Ideal) .ogt (degVec m c) (broadcastInDim S100000 ![] bcast_S_S100000 (constant (F := Ideal) S_ .f32 0x00000000#32)) := by
  show StableHlo.after hostOps0 (W0 m ρ c) (Proc.devRef .tc main_v12) = _
  after_results
  rfl

theorem W1_v15 : W1 (F := Ideal) m ρ c (Proc.devRef .tc main_v15)
    = Host.rsqrt (F := Ideal) (maximumf (F := Ideal) (degVec m c) (broadcastInDim S100000 ![] bcast_S_S100000 (constant (F := Ideal) S_ .f32 0x3F800000#32))) := by
  show StableHlo.after hostOps0 (W0 m ρ c) (Proc.devRef .tc main_v15) = _
  after_results
  rfl

theorem W1_cst3 : W1 (F := Ideal) m ρ c (Proc.devRef .tc main_cst_3) = constant (F := Ideal) S_ .f32 0x00000000#32 := by
  show StableHlo.after hostOps0 (W0 m ρ c) (Proc.devRef .tc main_cst_3) = _
  after_results

/-! The two short stretches (the select of the scale, and its reshape into a column), from ANY contents. -/

theorem stretch_select (V : Valuation τ sig (Elt Ideal)) :
    StableHlo.after (hostOps0_1 (F := Ideal)) V (Proc.devRef .tc main_v16)
      = select (V (Proc.devRef .tc main_v12)) (V (Proc.devRef .tc main_v15))
          (broadcastInDim S100000 ![] bcast_S_S100000 (id (V (Proc.devRef .tc main_cst_3)))) := by
  after_results
  simp only [Cert.LibStretch.ofBuf_toBuf, Cert.LibStretch.toBuf_ofBuf]
  rfl

theorem stretch_column (V : Valuation τ sig (Elt Ideal)) :
    StableHlo.after (hostOps0_2 (F := Ideal)) V (Proc.devRef .tc main_v17)
      = shapeCast S100000x1 (V (Proc.devRef .tc main_v16)) shapeCasts_S100000_S100000x1 := by
  after_results
  rfl

/-- Neither short stretch writes the edge words or an argument. -/
theorem stretch_select_keeps (V : Valuation τ sig (Elt Ideal)) (b : Ref sig .tc)
    (hb : b = main_v3 ∨ b = main_v6 ∨ b = main_arg0 ∨ b = main_arg2 ∨ b = main_arg3 ∨ b = main_arg4 ∨ b = main_arg5) :
    StableHlo.after (hostOps0_1 (F := Ideal)) V (Proc.devRef .tc b) = V (Proc.devRef .tc b) := by
  rcases hb with rfl | rfl | rfl | rfl | rfl | rfl | rfl <;> after_results

theorem stretch_column_keeps (V : Valuation τ sig (Elt Ideal)) (b : Ref sig .tc)
    (hb : b = main_v3 ∨ b = main_v6 ∨ b = main_arg0 ∨ b = main_arg2 ∨ b = main_arg3 ∨ b = main_arg4 ∨ b = main_arg5) :
    StableHlo.after (hostOps0_2 (F := Ideal)) V (Proc.devRef .tc b) = V (Proc.devRef .tc b) := by
  rcases hb with rfl | rfl | rfl | rfl | rfl | rfl | rfl <;> after_results

theorem W1_arg (b : Ref sig .tc) (hb : b = main_arg0 ∨ b = main_arg2 ∨ b = main_arg3 ∨ b = main_arg4 ∨ b = main_arg5) :
    W1 (F := Ideal) m ρ c (Proc.devRef .tc b) = m ((c.tc : Thread nD τ).loc b) := by
  rcases hb with rfl | rfl | rfl | rfl | rfl <;>
  · show StableHlo.after hostOps0 (W0 m ρ c) _ = _
    after_results
    try rfl

theorem W2_v16 : W2 (F := Ideal) m ρ c (Proc.devRef .tc main_v16) = dinvVec m c :=
  (stretch_select (W1 m ρ c)).trans (by rw [W1_v12 m ρ c, W1_v15 m ρ c, W1_cst3 m ρ c]; rfl)

theorem W3_v17 : W3 (F := Ideal) m ρ c (Proc.devRef .tc main_v17) = dinvCol m c :=
  (stretch_column (W2 m ρ c)).trans (by rw [W2_v16 m ρ c]; rfl)

theorem W3_v3 : W3 (F := Ideal) m ρ c (Proc.devRef .tc main_v3) = srcVec m c :=
  (stretch_column_keeps (W2 m ρ c) main_v3 (.inl rfl)).trans
    ((stretch_select_keeps (W1 m ρ c) main_v3 (.inl rfl)).trans (W1_v3 m ρ c))

theorem W3_v6 : W3 (F := Ideal) m ρ c (Proc.devRef .tc main_v6) = dstVec m c :=
  (stretch_column_keeps (W2 m ρ c) main_v6 (.inr (.inl rfl))).trans
    ((stretch_select_keeps (W1 m ρ c) main_v6 (.inr (.inl rfl))).trans (W1_v6 m ρ c))

/-- An argument array is as launched when the first grid is entered. -/
theorem W3_arg (b : Ref sig .tc) (hb : b = main_arg0 ∨ b = main_arg2 ∨ b = main_arg3 ∨ b = main_arg4 ∨ b = main_arg5) :
    W3 (F := Ideal) m ρ c (Proc.devRef .tc b) = m ((c.tc : Thread nD τ).loc b) :=
  (stretch_column_keeps (W2 m ρ c) b (.inr (.inr hb))).trans
    ((stretch_select_keeps (W1 m ρ c) b (.inr (.inr hb))).trans (W1_arg m ρ c b hb))

/-! Equal arrays give equal stage functions. -/

theorem proj1_congr {x x' : Gcn.Mat 100000 512} {w w' : Gcn.Mat 512 16} {dv dv' : Gcn.Mat 100000 1}
    (hx : x = x') (hw : w = w') (hd : dv = dv') :
    (fun i : (⟨2, ![100000, 16]⟩ : Shape).Idx => Gcn.proj1 x w dv (i 0) (i 1)) = fun i => Gcn.proj1 x' w' dv' (i 0) (i 1) := by
  subst hx hw hd; rfl

theorem proj2_congr {a a' : Gcn.Mat 100000 16} {dv dv' : Gcn.Mat 100000 1} {b b' : Gcn.Mat 1 16} {w w' : Gcn.Mat 16 7}
    (ha : a = a') (hd : dv = dv') (hb : b = b') (hw : w = w') :
    (fun i : (⟨2, ![100000, 7]⟩ : Shape).Idx => Gcn.proj2 a dv b w (i 0) (i 1)) = fun i => Gcn.proj2 a' dv' b' w' (i 0) (i 1) := by
  subst ha hd hb hw; rfl

theorem outStage_congr {a a' : Gcn.Mat 100000 7} {dv dv' : Gcn.Mat 100000 1} {b b' : Gcn.Mat 1 7}
    (ha : a = a') (hd : dv = dv') (hb : b = b') :
    (fun i : (⟨2, ![100000, 7]⟩ : Shape).Idx => Gcn.outStage a dv b (i 0) (i 1)) = fun i => Gcn.outStage a' dv' b' (i 0) (i 1) := by
  subst ha hd hb; rfl

/-! ## The arrays the grids read and write, boundary by boundary -/

/-- The first projection's output: every row of x · W₁ scaled by its node's scale. -/
def h1 : Gcn.Mat 100000 16 := fun i =>
  Gcn.proj1 (m ((c.tc : Thread nD τ).loc main_arg0)) (m ((c.tc : Thread nD τ).loc main_arg2)) (dinvCol m c) (i 0) (i 1)

/-- The first aggregation: the gathered source rows of `h1` added up per destination. -/
def agg1 : FVec Ideal S100000x16 .f32 :=
  Host.scatterAdd (F := Ideal) scatter_S100000x16_S3300000x1_S3300000x16_1_0_0_1
    (broadcastInDim S100000x16 ![] bcast_S_S100000x16 (constant (F := Ideal) S_ .f32 0x00000000#32)) (dstIdx m c)
    (Host.gather gather_S100000x16_S3300000x1_S3300000x16_1_0_n_n_0_1_116 (h1 m c) (srcIdx m c))

/-- The first bias as a one-row array. -/
def b1Row : FVec Ideal S1x16 .f32 :=
  shapeCast S1x16 (m ((c.tc : Thread nD τ).loc main_arg3)) shapeCasts_S16_S1x16

/-- The second projection's output. -/
def h2 : Gcn.Mat 100000 7 := fun i =>
  Gcn.proj2 (agg1 m c) (dinvCol m c) (b1Row m c) (m ((c.tc : Thread nD τ).loc main_arg4)) (i 0) (i 1)

/-- The second aggregation. -/
def agg2 : FVec Ideal S100000x7 .f32 :=
  Host.scatterAdd (F := Ideal) scatter_S100000x7_S3300000x1_S3300000x7_1_0_0_1
    (broadcastInDim S100000x7 ![] bcast_S_S100000x7 (constant (F := Ideal) S_ .f32 0x00000000#32)) (dstIdx m c)
    (Host.gather gather_S100000x7_S3300000x1_S3300000x7_1_0_n_n_0_1_17 (h2 m c) (srcIdx m c))

/-- The second bias as a one-row array. -/
def b2Row : FVec Ideal S1x7 .f32 :=
  shapeCast S1x7 (m ((c.tc : Thread nD τ).loc main_arg5)) shapeCasts_S7_S1x7

section Composition

variable (hR0 : ∀ (V : (c : Dev nD) → (b : Ref sig .tc) → Buf (Elt Ideal) ((c : Thread nD τ).loc b)) (c : Dev nD),
    (dat0 (F := Ideal) V c).arrAt 3 cfg0.N = fun i => Gcn.proj1 (V c main_arg0) (V c main_arg2) (V c main_v17) (i 0) (i 1))
variable (hR1 : ∀ (V : (c : Dev nD) → (b : Ref sig .tc) → Buf (Elt Ideal) ((c : Thread nD τ).loc b)) (c : Dev nD),
    (dat1 (F := Ideal) V c).arrAt 4 cfg1.N = fun i => Gcn.proj2 (V c main_v28) (V c main_v17) (V c main_v29) (V c main_arg4) (i 0) (i 1))
variable (hR2 : ∀ (V : (c : Dev nD) → (b : Ref sig .tc) → Buf (Elt Ideal) ((c : Thread nD τ).loc b)) (c : Dev nD),
    (dat2 (F := Ideal) V c).arrAt 3 cfg2.N = fun i => Gcn.outStage (V c main_v40) (V c main_v17) (V c main_v41) (i 0) (i 1))

include hR0 in
theorem W4_v18 : W4 (F := Ideal) m ρ c (Proc.devRef .tc main_v18) = h1 m c :=
  (W4_arr m ρ c 3).trans ((hR0 (V3 m ρ) c).trans
    (proj1_congr (W3_arg m ρ c main_arg0 (.inl rfl)) (W3_arg m ρ c main_arg2 (.inr (.inl rfl))) (W3_v17 m ρ c)))

theorem W4_v17 : W4 (F := Ideal) m ρ c (Proc.devRef .tc main_v17) = dinvCol m c :=
  ((W4_arr m ρ c 2).trans (((dat0 (V3 m ρ) c).arrAt_in 2 rfl _).trans (A_eq0 (V3 m ρ) c 2))).trans (W3_v17 m ρ c)

theorem W4_v3 : W4 (F := Ideal) m ρ c (Proc.devRef .tc main_v3) = srcVec m c :=
  (W4_of_ne m ρ c main_v3 (by decide)).trans (W3_v3 m ρ c)
theorem W4_v6 : W4 (F := Ideal) m ρ c (Proc.devRef .tc main_v6) = dstVec m c :=
  (W4_of_ne m ρ c main_v6 (by decide)).trans (W3_v6 m ρ c)
theorem W4_arg3 : W4 (F := Ideal) m ρ c (Proc.devRef .tc main_arg3) = m ((c.tc : Thread nD τ).loc main_arg3) :=
  (W4_of_ne m ρ c main_arg3 (by decide)).trans (W3_arg m ρ c main_arg3 (.inr (.inr (.inl rfl))))
theorem W4_arg4 : W4 (F := Ideal) m ρ c (Proc.devRef .tc main_arg4) = m ((c.tc : Thread nD τ).loc main_arg4) :=
  (W4_of_ne m ρ c main_arg4 (by decide)).trans (W3_arg m ρ c main_arg4 (.inr (.inr (.inr (.inl rfl)))))
theorem W4_arg5 : W4 (F := Ideal) m ρ c (Proc.devRef .tc main_arg5) = m ((c.tc : Thread nD τ).loc main_arg5) :=
  (W4_of_ne m ρ c main_arg5 (by decide)).trans (W3_arg m ρ c main_arg5 (.inr (.inr (.inr (.inr rfl)))))

include hR0 in
theorem W5_v28 : W5 (F := Ideal) m ρ c (Proc.devRef .tc main_v28) = agg1 m c := by
  show StableHlo.after hostOps1 (W4 m ρ c) (Proc.devRef .tc main_v28) = _
  after_results
  rw [W4_v6, W4_v3, W4_v18 m ρ c hR0]
  rfl

theorem W5_v17 : W5 (F := Ideal) m ρ c (Proc.devRef .tc main_v17) = dinvCol m c := by
  show StableHlo.after hostOps1 (W4 m ρ c) (Proc.devRef .tc main_v17) = _
  after_results
  exact W4_v17 m ρ c

theorem W5_v29 : W5 (F := Ideal) m ρ c (Proc.devRef .tc main_v29) = b1Row m c := by
  show StableHlo.after hostOps1 (W4 m ρ c) (Proc.devRef .tc main_v29) = _
  after_results
  rw [W4_arg3]
  rfl

theorem W5_arg4 : W5 (F := Ideal) m ρ c (Proc.devRef .tc main_arg4) = m ((c.tc : Thread nD τ).loc main_arg4) := by
  show StableHlo.after hostOps1 (W4 m ρ c) (Proc.devRef .tc main_arg4) = _
  after_results
  exact W4_arg4 m ρ c

theorem W5_v3 : W5 (F := Ideal) m ρ c (Proc.devRef .tc main_v3) = srcVec m c := by
  show StableHlo.after hostOps1 (W4 m ρ c) (Proc.devRef .tc main_v3) = _
  after_results
  exact W4_v3 m ρ c
theorem W5_v6 : W5 (F := Ideal) m ρ c (Proc.devRef .tc main_v6) = dstVec m c := by
  show StableHlo.after hostOps1 (W4 m ρ c) (Proc.devRef .tc main_v6) = _
  after_results
  exact W4_v6 m ρ c
theorem W5_arg5 : W5 (F := Ideal) m ρ c (Proc.devRef .tc main_arg5) = m ((c.tc : Thread nD τ).loc main_arg5) := by
  show StableHlo.after hostOps1 (W4 m ρ c) (Proc.devRef .tc main_arg5) = _
  after_results
  exact W4_arg5 m ρ c

include hR0 hR1 in
theorem W6_v30 : W6 (F := Ideal) m ρ c (Proc.devRef .tc main_v30) = h2 m c :=
  (W6_arr m ρ c 4).trans ((hR1 (V5 m ρ) c).trans
    (proj2_congr (W5_v28 m ρ c hR0) (W5_v17 m ρ c) (W5_v29 m ρ c) (W5_arg4 m ρ c)))

theorem W6_v17 : W6 (F := Ideal) m ρ c (Proc.devRef .tc main_v17) = dinvCol m c :=
  ((W6_arr m ρ c 1).trans (((dat1 (V5 m ρ) c).arrAt_in 1 rfl _).trans (A_eq1 (V5 m ρ) c 1))).trans (W5_v17 m ρ c)
theorem W6_v3 : W6 (F := Ideal) m ρ c (Proc.devRef .tc main_v3) = srcVec m c :=
  (W6_of_ne m ρ c main_v3 (by decide)).trans (W5_v3 m ρ c)
theorem W6_v6 : W6 (F := Ideal) m ρ c (Proc.devRef .tc main_v6) = dstVec m c :=
  (W6_of_ne m ρ c main_v6 (by decide)).trans (W5_v6 m ρ c)
theorem W6_arg5 : W6 (F := Ideal) m ρ c (Proc.devRef .tc main_arg5) = m ((c.tc : Thread nD τ).loc main_arg5) :=
  (W6_of_ne m ρ c main_arg5 (by decide)).trans (W5_arg5 m ρ c)

include hR0 hR1 in
theorem W7_v40 : W7 (F := Ideal) m ρ c (Proc.devRef .tc main_v40) = agg2 m c := by
  show StableHlo.after hostOps2 (W6 m ρ c) (Proc.devRef .tc main_v40) = _
  after_results
  rw [W6_v6, W6_v3, W6_v30 m ρ c hR0 hR1]
  rfl

theorem W7_v17 : W7 (F := Ideal) m ρ c (Proc.devRef .tc main_v17) = dinvCol m c := by
  show StableHlo.after hostOps2 (W6 m ρ c) (Proc.devRef .tc main_v17) = _
  after_results
  exact W6_v17 m ρ c

theorem W7_v41 : W7 (F := Ideal) m ρ c (Proc.devRef .tc main_v41) = b2Row m c := by
  show StableHlo.after hostOps2 (W6 m ρ c) (Proc.devRef .tc main_v41) = _
  after_results
  rw [W6_arg5]
  rfl

include hR0 hR1 hR2 in
/-- The result buffer at the end of the run: the output stage of the second aggregation. -/
theorem result_eq : W8 (F := Ideal) m ρ c (Proc.devRef .tc main_v42)
    = fun i => Gcn.outStage (agg2 m c) (dinvCol m c) (b2Row m c) (i 0) (i 1) :=
  (W8_arr m ρ c 3).trans ((hR2 (V7 m ρ) c).trans
    (outStage_congr (W7_v40 m ρ c hR0 hR1) (W7_v17 m ρ c) (W7_v41 m ρ c)))

end Composition

end Cert.KernelIdeal.Glue

end
-- ==== Proof.LibGatherScatterRows.lean ====
/-
  Host operations READ AT AN INDEX, for the dimension numbers an indexing by an `E × 1` column of positions lowers to:
  a scatter-add of whole rows into a matrix (the sum, over the update rows sent to a row, of their entries), a gather of
  whole rows of a matrix, a gather of entries of a vector, and a scatter-add of entries into a vector. A gather clamps
  the position into the operand; a scatter drops an update whose position is outside it. First, for ANY scatter
  dimension numbers: an update lands at an operand index exactly when start plus window coordinate is that index on
  every axis.
-/
import Idealize.ShloMosaic.PureOps.Ideal
import Idealize.ShloMosaic.PureOps.Contract
import Idealize.ShloMosaic.Lib.ValueIdx

noncomputable section

open scoped BigOperators

namespace Cert.LibGatherScatterRows

open Idealize.ShloMosaic Idealize.ShloMosaic.ValueIdx

/-! ## Where an update lands, for any scatter dimension numbers -/

/-- An update index `j` lands at the operand index `i` exactly when, on every operand axis, the window's start plus
    the window coordinate is `i`'s coordinate (the sum is then inside the operand, so the update is not dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have hi := Option.some.inj h
      intro a
      have hv := congrArg Fin.val (congrFun hi a)
      simp only at hv
      have := (hc a).1
      omega
    · exact absurd h (by simp)
  · intro h
    have hc : ∀ a, 0 ≤ d.start j idx a + d.window j a ∧ d.start j idx a + d.window j a < s.size a := by
      intro a
      have := h a
      have := (i a).isLt
      omega
    rw [dif_pos hc]
    congr 1
    funext a
    refine Fin.ext ?_
    have := h a
    simp only
    omega

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

/-- In rank 2, axis 1 is not in the list `[0]`. -/
theorem one_not_mem_zero {s : Shape} (hs : s.rank = 2) : (⟨1, by omega⟩ : Fin s.rank) ∉ [(⟨0, by omega⟩ : Fin s.rank)] :=
  fun h => absurd (congrArg Fin.val (List.mem_singleton.mp h)) Nat.one_ne_zero

/-! ## A scatter-add of rows -/

/-- The dimension numbers of a scatter of `E` rows of width `D` into an `N × D` matrix at the row numbers held in an
    `E × 1` column: the updates' axis 1 is the window, the operand's axis 0 is inserted and is the one the index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : Nat} (wf : ScatterDims.WF ⟨2, ![N, D]⟩ ⟨2, ![E, 1]⟩ ⟨2, ![E, D]⟩ [1] [0] [0] 1)

/-- On the operand's row axis the window of update `(e, q')` starts at the row number `idx[e, 0]`, read signed. -/
theorem rowScatter_start_row (idx : IVec ⟨2, ![E, 1]⟩ w) (e : Fin E) (q' : Fin D) :
    (rowScatterDims N D E wf).start (ix2 e q') idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e q')
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis, which the index does not name, the window starts at `0`. -/
theorem rowScatter_start_col (idx : IVec ⟨2, ![E, 1]⟩ w) (e : Fin E) (q' : Fin D) :
    (rowScatterDims N D E wf).start (ix2 e q') idx 1 = 0 := by
  unfold ScatterDims.start
  rw [dif_neg (show (1 : Fin 2) ∉ (rowScatterDims N D E wf).scatterDimsToOperandDims from one_not_mem_zero rfl)]

/-- The row axis is inserted: the window coordinate on it is `0`. -/
theorem rowScatter_window_row (e : Fin E) (q' : Fin D) : (rowScatterDims N D E wf).window (ix2 e q') 0 = 0 := by
  unfold ScatterDims.window
  rw [dif_neg (show (0 : Fin 2) ∉ (rowScatterDims N D E wf).sKept from fun h => (mem_kept _ _).mp h (List.mem_singleton.mpr rfl))]

/-- The column axis carries the window: the window coordinate on it is the update's column `q'`. -/
theorem rowScatter_window_col (e : Fin E) (q' : Fin D) : (rowScatterDims N D E wf).window (ix2 e q') 1 = q'.val := by
  unfold ScatterDims.window
  rw [dif_pos (show (1 : Fin 2) ∈ (rowScatterDims N D E wf).sKept from (mem_kept _ _).mpr (one_not_mem_zero rfl))]
  rfl

/-- WHERE A ROW UPDATE LANDS: update `(e, q')` lands at operand element `(r, q)` exactly when the row number
    `idx[e, 0]`, read signed, is `r` and the columns agree (a row number outside `[0, N)` lands nowhere). -/
theorem rowScatter_resultIdx?_eq_some_iff (idx : IVec ⟨2, ![E, 1]⟩ w) (e : Fin E) (q' : Fin D) (r : Fin N) (q : Fin D) :
    (rowScatterDims N D E wf).resultIdx? (ix2 e q') idx = some (ix2 r q)
      ↔ ((idx (ix2 e 0)).toInt = (r.val : ℤ) ∧ q' = q) := by
  rw [resultIdx?_eq_some_iff]
  constructor
  · intro h
    have h0 := h 0
    have h1 := h 1
    rw [rowScatter_start_row, rowScatter_window_row] at h0
    rw [rowScatter_start_col, rowScatter_window_col] at h1
    simp only [Nat.cast_zero, add_zero] at h0
    simp only [zero_add, Nat.cast_inj] at h1
    exact ⟨h0, Fin.ext h1⟩
  · rintro ⟨h0, rfl⟩ a
    match a with
    | ⟨0, _⟩ =>
      show (rowScatterDims N D E wf).start (ix2 e q') idx 0 + ((rowScatterDims N D E wf).window (ix2 e q') 0 : ℤ) = _
      rw [rowScatter_start_row, rowScatter_window_row, h0]; simp
    | ⟨1, _⟩ =>
      show (rowScatterDims N D E wf).start (ix2 e q') idx 1 + ((rowScatterDims N D E wf).window (ix2 e q') 1 : ℤ) = _
      rw [rowScatter_start_col, rowScatter_window_col]; simp

end RowScatter

/-- A SCATTER-ADD OF ROWS READ AT `(r, q)`, at the ideal values: the operand's element plus the sum, over the update
    rows `e` whose row number `idx[e, 0]` (read signed) is `r`, of the update's entry in column `q`. A row number
    outside `[0, N)` equals no `r`: its row is dropped. (`d` is any record equal to the literal one, e.g. a program's
    own definition: `hd` is then `rfl`.) -/
theorem scatterAdd_rows_apply {N D E w : Nat} {φ : FTy}
    (d : ScatterDims ⟨2, ![N, D]⟩ ⟨2, ![E, 1]⟩ ⟨2, ![E, D]⟩)
    (wf : ScatterDims.WF ⟨2, ![N, D]⟩ ⟨2, ![E, 1]⟩ ⟨2, ![E, D]⟩ [1] [0] [0] 1)
    (hd : d = rowScatterDims N D E wf)
    (x : FVec Ideal ⟨2, ![N, D]⟩ φ) (idx : IVec ⟨2, ![E, 1]⟩ w) (upd : FVec Ideal ⟨2, ![E, D]⟩ φ)
    (r : Fin N) (q : Fin D) :
    Host.scatterAdd (F := Ideal) d x idx upd (ix2 r q)
      = x (ix2 r q) + ∑ e : Fin E, if (idx (ix2 e 0)).toInt = (r.val : ℤ) then upd (ix2 e q) else 0 := by
  subst hd
  show Ideal.hostScatterAdd (rowScatterDims N D E wf) x idx upd (ix2 r q) = _
  unfold Ideal.hostScatterAdd
  congr 1
  rw [Finset.sum_filter, sum_idx2]
  refine Finset.sum_congr rfl fun e _ => ?_
  simp only [rowScatter_resultIdx?_eq_some_iff]
  by_cases he : (idx (ix2 e 0)).toInt = (r.val : ℤ)
  · simp only [he, true_and, if_true]
    rw [Finset.sum_ite_eq' Finset.univ q (fun q' => upd (ix2 e q'))]
    simp only [Finset.mem_univ, if_true]
  · simp only [he, false_and, if_false, Finset.sum_const_zero]

/-! ## A gather of rows -/

section RowGather
variable {α : Type}

/-- The dimension numbers of a gather of `E` whole rows of an `N × D` matrix at the row numbers held in an `E × 1`
    column: the operand's axis 0 is collapsed and is the one the index names, the slice is one row, and the result's
    axis 1 runs along it. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A GATHER OF ROWS READ AT `(e, q)`: the operand's entry in column `q` of the row whose number is `idx[e, 0]`, read
    signed and clamped into `[0, N − 1]`. (`d` is any record equal to the literal one: `hd` is then `rfl`.) -/
theorem gather_rows_apply {N D E w : Nat} (hN : 0 < N)
    (d : GatherDims ⟨2, ![N, D]⟩ ⟨2, ![E, 1]⟩ ⟨2, ![E, D]⟩)
    (wf : GatherDims.WF ⟨2, ![N, D]⟩ ⟨2, ![E, 1]⟩ ⟨2, ![E, D]⟩ [1] [0] [] [0] [] 1 ![1, D])
    (hd : d = rowGatherDims N D E wf)
    (x : (⟨2, ![N, D]⟩ : Shape).Idx → α) (idx : IVec ⟨2, ![E, 1]⟩ w) (e : Fin E) (q : Fin D) :
    Host.gather d x idx (ix2 e q) = x (ix2 ⟨min (idx (ix2 e 0)).toInt.toNat (N - 1), by omega⟩ q) := by
  subst hd
  unfold Host.gather
  congr 1
  funext a
  refine Fin.ext ?_
  match a with
  | ⟨0, _⟩ =>
    show (rowGatherDims N D E wf).start (ix2 e q) idx 0 + (rowGatherDims N D E wf).batchCoord (ix2 e q) 0
      + (rowGatherDims N D E wf).offCoord (ix2 e q) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e q) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e q) idx 1 + (rowGatherDims N D E wf).batchCoord (ix2 e q) 1
      + (rowGatherDims N D E wf).offCoord (ix2 e q) 1 = q.val
    rw [GatherDims.batchCoord_eq_zero _ _ _ List.not_mem_nil]
    have hst : (rowGatherDims N D E wf).start (ix2 e q) idx 1 = 0 := by
      unfold GatherDims.start
      rw [dif_neg (show (1 : Fin 2) ∉ (rowGatherDims N D E wf).startIndexMap from one_not_mem_zero rfl)]
    rw [hst]
    simp only [Nat.add_zero, Nat.zero_add]
    unfold GatherDims.offCoord
    rw [dif_pos (show (1 : Fin 2) ∈ (rowGatherDims N D E wf).sKept from
      (GatherDims.mem_sKept _ _).mpr ⟨one_not_mem_zero rfl, List.not_mem_nil⟩)]
    rfl

end RowGather

/-! ## A gather of entries of a vector -/

section VecGather
variable {α : Type}

/-- The dimension numbers of a gather of `E` entries of a vector of `N` entries at the positions held in an `E × 1`
    column: the operand's one axis is collapsed and is the one the index names, the slice is one entry. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A GATHER OF VECTOR ENTRIES READ AT `e`: the operand's entry at the position `idx[e, 0]`, read signed and clamped
    into `[0, N − 1]`. (`d` is any record equal to the literal one: `hd` is then `rfl`.) -/
theorem gather_vec_apply {N E w : Nat} (hN : 0 < N)
    (d : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1])
    (hd : d = vecGatherDims N E wf)
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  subst hd
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

/-! ## A scatter-add of entries into a vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of `E` entries into a vector of `N` entries at the positions held in an
    `E × 1` column: no window axis, the operand's one axis is inserted and is the one the index names. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- WHERE AN ENTRY UPDATE LANDS: update `e` lands at operand entry `r` exactly when the position `idx[e, 0]`, read
    signed, is `r` (a position outside `[0, N)` lands nowhere). -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r) ↔ (idx (ix2 e 0)).toInt = (r.val : ℤ) := by
  rw [resultIdx?_eq_some_iff]
  have hst : (vecScatterDims N E wf).start (ix1 e) idx 0 = (idx (ix2 e 0)).toInt := by
    unfold ScatterDims.start
    rw [dif_pos (show (0 : Fin 1) ∈ (vecScatterDims N E wf).scatterDimsToOperandDims from List.mem_singleton.mpr rfl)]
    have hsi : (vecScatterDims N E wf).siIdx (ix1 e)
        ⟨List.idxOf (0 : Fin 1) (vecScatterDims N E wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hwin : (vecScatterDims N E wf).window (ix1 e) 0 = 0 := by
    unfold ScatterDims.window
    rw [dif_neg (show (0 : Fin 1) ∉ (vecScatterDims N E wf).sKept from
      fun h => (mem_kept _ _).mp h (List.mem_singleton.mpr rfl))]
  constructor
  · intro h
    have h0 := h 0
    rw [hst, hwin] at h0
    simp only [Nat.cast_zero, add_zero] at h0
    exact h0
  · intro h0 a
    obtain rfl : a = 0 := Subsingleton.elim _ _
    rw [hst, hwin, h0]
    simp only [Nat.cast_zero, add_zero]
    rfl

/-- A SCATTER-ADD OF ENTRIES READ AT `r`, at the ideal values: the operand's entry plus the sum of the updates `e`
    whose position `idx[e, 0]` (read signed) is `r`. (`d` is any record equal to the literal one: `hd` is then
    `rfl`.) -/
theorem scatterAdd_vec_apply {N E w : Nat} {φ : FTy}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = vecScatterDims N E wf)
    (x : FVec Ideal ⟨1, ![N]⟩ φ) (idx : IVec ⟨2, ![E, 1]⟩ w) (upd : FVec Ideal ⟨1, ![E]⟩ φ) (r : Fin N) :
    Host.scatterAdd (F := Ideal) d x idx upd (ix1 r)
      = x (ix1 r) + ∑ e : Fin E, if (idx (ix2 e 0)).toInt = (r.val : ℤ) then upd (ix1 e) else 0 := by
  subst hd
  show Ideal.hostScatterAdd (vecScatterDims N E wf) x idx upd (ix1 r) = _
  unfold Ideal.hostScatterAdd
  congr 1
  rw [Finset.sum_filter, sum_idx1]
  refine Finset.sum_congr rfl fun e _ => ?_
  simp only [vecScatter_resultIdx?_eq_some_iff]

end VecScatter

end Cert.LibGatherScatterRows

end
-- ==== Proof.LibColumn.lean ====
/-
  Column forms of the layout operations read at an index: a vector of `a` entries seen as an `a × 1` column,
  and such a column repeated along `b` columns. (The row forms, and the transpose, are the library's.)
-/
import Idealize.ShloMosaic.Lib.Pipeline.Value
import Idealize.ShloMosaic.Lib.ValueIdx
import Idealize.ShloMosaic.Lib.ValueLayout

namespace Idealize.ShloMosaic.ColumnForms

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.Law.lean ====
/-
  The algebra that joins the two arrangements of the normalized aggregation.

  The kernel scales a row once before the gather (by the source's scale) and once after the scatter-add (by the
  destination's scale); the reference multiplies every edge's message by the product of the two scales and adds the
  products up. Moving the destination's scale across the sum is distributivity, which the extended reals have only
  away from the infinities: so everything here is stated for extended reals that ARE real numbers.
-/
import Idealize.ShloMosaic.PureOps.Ideal

noncomputable section

namespace Cert.Gcn

open scoped BigOperators

/-- An extended real that is (the image of) a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.max {x y : EReal} (hx : IsReal x) (hy : IsReal y) : IsReal (max x y) := by
  rcases le_total x y with h | h
  · rw [max_eq_right h]; exact hy
  · rw [max_eq_left h]; exact hx

theorem IsReal.ite {p : Prop} [Decidable p] {x y : EReal} (hx : IsReal x) (hy : IsReal y) : IsReal (if p then x else y) := by
  split <;> assumption

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- THE LAW. Over a finite set of edges of which `S` selects those arriving at one node: the node's scale `c`
    times the sum of the selected messages `P e · A e` (a row entry times its source's scale) is the sum of the
    selected `(A e · G e) · P e`, when `G e` is that same scale `c` on every selected edge — all of them real. -/
theorem scale_sum {ι : Type} [Fintype ι] (S : ι → Prop) [DecidablePred S] (c : EReal) (P A G : ι → EReal)
    (hc : IsReal c) (hP : ∀ e, IsReal (P e)) (hA : ∀ e, IsReal (A e)) (hG : ∀ e, S e → G e = c) :
    c * (∑ e, if S e then P e * A e else 0) = ∑ e, if S e then (A e * G e) * P e else 0 := by
  obtain ⟨c', rfl⟩ := hc
  choose P' hP' using hP
  choose A' hA' using hA
  have hl : ∀ e, (if S e then P e * A e else 0) = (((if S e then P' e * A' e else 0 : ℝ)) : EReal) := fun e => by
    split
    · rw [hP' e, hA' e, EReal.coe_mul]
    · rfl
  have hr : ∀ e, (if S e then (A e * G e) * P e else 0) = (((if S e then (A' e * c') * P' e else 0 : ℝ)) : EReal) := fun e => by
    split
    · rename_i h
      rw [hG e h, hP' e, hA' e, EReal.coe_mul, EReal.coe_mul]
    · rfl
  simp only [hl, hr]
  rw [← coe_sum, ← coe_sum, ← EReal.coe_mul, Finset.mul_sum]
  refine congrArg _ (Finset.sum_congr rfl fun e _ => ?_)
  split <;> ring

end Cert.Gcn

end
-- ==== Proof.Finite.lean ====
/-
  Finiteness: what the precondition gives, and why the scale needs no precondition.

  The precondition is the conjunction, over the five float inputs, of "every entry has absolute value below +∞".
  Each conjunct is a reduction by `and` from the constant true of the entrywise comparison |x| < +∞; when the
  reduction is true every entry passed the comparison, the word of +∞ is the top element of the extended reals, and
  an extended real whose absolute value (the larger of x and −x) is below the top element is neither infinity: it is a
  real number.

  The scale of a node is the inverse square root of its degree raised to at least one where the degree is positive, and
  zero elsewhere. The inverse square root is the bottom element at the bottom element and at negative reals, the top
  element at zero, zero at the top element and a real number at positive reals; an argument raised to at least one is
  never the bottom element, negative or zero, so the scale is a real number whatever the degree is.
-/
import proofs.«181120_j12592844112334_2_alg».proof.Pre_finite_inputs
import proofs.«181120_j12592844112334_2_alg».proof.KernelIdeal
import proofs.«181120_j12592844112334_2_alg».proof.Proof.Law
import Idealize.ShloMosaic.Lib.ReduceAll
import Idealize.ShloMosaic.Lib.ValueIdx
import Idealize.ShloMosaic.Lib.IdealHost
import Idealize.ShloMosaic.PureOps.Ideal.Laws

noncomputable section

open Idealize.ShloMosaic Idealize.ShloMosaic.ValueIdx

namespace Cert.Finite

open Cert.Gcn

/-- The word of +∞ is the top element. -/
theorem top_word : Ideal.ofBits .f32 0x7F800000#32 = ⊤ := by simp [Ideal.ofBits, Ideal.ieee]

/-- An extended real whose absolute value is below +∞ is a real number. -/
theorem isReal_of_abs_lt_top (x : EReal) (h : max x (-x) < ⊤) : Gcn.IsReal x := by
  induction x using EReal.rec with
  | bot => exact absurd h (by simp)
  | coe r => exact isReal_coe r
  | top => exact absurd h (by simp)

/-- The rank-0 shape has one index. -/
instance subsingleton_scalar_idx : Subsingleton (⟨0, ![]⟩ : Shape).Idx := ⟨fun a b => funext fun d => d.elim0⟩

/-- One `all (|x| < +∞)` that came out true: every entry of x is a real number. -/
theorem all_real {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : Gcn.IsReal (x i) := by
  have h1 := Host.reduce_andi_all _ _ hr hu ix0 e i
  rw [cmpf_apply, broadcastInDim_scalar_apply, constant_apply, top_word] at h1
  refine isReal_of_abs_lt_top (x i) ?_
  have h2 : BitVec.ofBool (decide (max (x i) (-(x i)) < ⊤)) = 1#1 := h1
  by_contra hn
  rw [decide_eq_false hn] at h2
  exact absurd h2 (by decide)

/-- The inverse square root of anything raised to at least one is a real number: the argument is never the bottom
    element, negative or zero, and at the top element the value is zero. -/
theorem isReal_rsqrt_max_one (y : EReal) : Gcn.IsReal (Ideal.rsqrt (max y 1)) := by
  induction y using EReal.rec with
  | bot =>
    rw [max_eq_right bot_le, ← EReal.coe_one, Ideal.rsqrt_coe, if_neg (by norm_num), if_neg (by norm_num)]
    exact isReal_coe _
  | coe r =>
    have hm : max (r : EReal) 1 = ((max r 1 : ℝ) : EReal) := by
      rw [← EReal.coe_one]; exact (EReal.coe_strictMono.monotone.map_max).symm
    have h1 : (1 : ℝ) ≤ max r 1 := le_max_right r 1
    rw [hm, Ideal.rsqrt_coe, if_neg (by linarith), if_neg (by linarith)]
    exact isReal_coe _
  | top =>
    rw [max_eq_left le_top, Ideal.rsqrt_top]
    exact isReal_zero

variable [Cert.Pre_finite_inputs.Facts]

/-- Under the printed precondition every float input is an array of real numbers. -/
theorem reals_of_pre (x0 : FVec Ideal Cert.Pre_finite_inputs.S100000x512 .f32) (x1 : IVec Cert.Pre_finite_inputs.S2x3200000 32)
    (x2 : FVec Ideal Cert.Pre_finite_inputs.S512x16 .f32) (x3 : FVec Ideal Cert.Pre_finite_inputs.S16 .f32)
    (x4 : FVec Ideal Cert.Pre_finite_inputs.S16x7 .f32) (x5 : FVec Ideal Cert.Pre_finite_inputs.S7 .f32)
    (h : Cert.Pre_finite_inputs.fn (F := Ideal) x0 x1 x2 x3 x4 x5 = fun _ => 1#1) :
    (∀ i, Gcn.IsReal (x0 i)) ∧ (∀ i, Gcn.IsReal (x2 i)) ∧ (∀ i, Gcn.IsReal (x3 i)) ∧ (∀ i, Gcn.IsReal (x4 i))
      ∧ (∀ i, Gcn.IsReal (x5 i)) := by
  have h0 := congrFun h ix0
  dsimp only [Cert.Pre_finite_inputs.fn, Cert.Pre_finite_inputs.fn_part1] at h0
  obtain ⟨h0123, e5⟩ := IntOp.andi_eq_one.1 h0
  obtain ⟨h012, e4⟩ := IntOp.andi_eq_one.1 h0123
  obtain ⟨h01, e3⟩ := IntOp.andi_eq_one.1 h012
  obtain ⟨e0, e2⟩ := IntOp.andi_eq_one.1 h01
  exact ⟨all_real x0 _ _ _ e0, all_real x2 _ _ _ e2, all_real x3 _ _ _ e3, all_real x4 _ _ _ e4, all_real x5 _ _ _ e5⟩

end Cert.Finite

namespace Cert.KernelIdeal

open Cert.Gcn

variable [Facts]
open Facts₀ Facts

/-- The scale vector is real at every node, whatever the degree there: where the degree is positive it is the inverse
    square root of the degree raised to at least one, elsewhere it is zero. -/
theorem isReal_scale (deg : FVec Ideal S100000 .f32) (i : S100000.Idx) : Gcn.IsReal
    ((select (cmpf (F := Ideal) .ogt deg (broadcastInDim S100000 ![] bcast_S_S100000 (constant (F := Ideal) S_ .f32 0x00000000#32)))
      (Host.rsqrt (F := Ideal) (maximumf (F := Ideal) deg (broadcastInDim S100000 ![] bcast_S_S100000 (constant (F := Ideal) S_ .f32 0x3F800000#32))))
      (broadcastInDim S100000 ![] bcast_S_S100000 (id (constant (F := Ideal) S_ .f32 0x00000000#32)))) i) := by
  rw [select_apply]
  unfold Scalar.select
  refine IsReal.ite ?_ ?_
  · show Gcn.IsReal (Ideal.rsqrt (max (deg i) (broadcastInDim S100000 ![] bcast_S_S100000 (constant (F := Ideal) S_ .f32 0x3F800000#32) i)))
    rw [broadcastInDim_scalar_apply, constant_apply, Ideal.ofBits_one_f32]
    exact Cert.Finite.isReal_rsqrt_max_one (deg i)
  · rw [broadcastInDim_scalar_apply]
    show Gcn.IsReal (Ideal.ofBits .f32 0x00000000#32)
    rw [Ideal.ofBits_zero_f32]
    exact isReal_zero

end Cert.KernelIdeal

end
-- ==== Proof.KernelValue.lean ====
/-
  The host stretches between the grids, read at an index.

  An aggregation is a scatter-add, into the zero matrix, of the rows gathered at the edges' sources: at (d, q) it is the
  sum, over the edges whose destination word read signed is d, of the entry (clamped source, q) of the gathered matrix —
  the zero word is the real zero, so the operand adds nothing, and the gather's clamp of the start word into
  [0, 99999] is the specification's clamp. The scale column at (n, 0) is the scale vector at n, a bias row at (0, k)
  is the bias vector at k (a cast that adds a unit axis keeps the row-major position), and every scale is a real number.
-/
import proofs.«181120_j12592844112334_2_alg».proof.Proof.KernelGlue
import proofs.«181120_j12592844112334_2_alg».proof.Proof.LibGatherScatterRows
import proofs.«181120_j12592844112334_2_alg».proof.Proof.LibColumn
import proofs.«181120_j12592844112334_2_alg».proof.Proof.Spec
import proofs.«181120_j12592844112334_2_alg».proof.Proof.Law
import proofs.«181120_j12592844112334_2_alg».proof.Proof.Finite
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.KValue

open Cert.KernelIdeal Cert.KernelIdeal.Gen Cert.KernelIdeal.Glue
open Idealize.ShloMosaic Idealize.ShloMosaic.TcCoe Idealize.SL.Sem Idealize.ShloMosaic.ValueIdx
open scoped BigOperators

variable (m : (ℓ : Loc nD τ sig) → Buf (Elt Ideal) ℓ) (c : Dev nD)

/-- The first aggregation at (d, k): the sum over the edges into d of the first projection's row at the edge's
    clamped source. -/
theorem agg1_apply (d : Fin 100000) (k : Fin 16) :
    agg1 m c (ix2 d k) = Gcn.gatherAdd (h1 m c) (srcIdx m c) (dstIdx m c) d k := by
  unfold agg1
  refine (Cert.LibGatherScatterRows.scatterAdd_rows_apply _
    Cert.KernelIdeal.Facts₀.scatter_S100000x16_S3300000x1_S3300000x16_1_0_0_1_wf rfl _ (dstIdx m c) _ d k).trans ?_
  rw [broadcastInDim_scalar_apply, constant_apply, Ideal.ofBits_zero_f32, zero_add]
  unfold Gcn.gatherAdd
  refine Finset.sum_congr rfl fun e _ => ?_
  refine congrArg (fun v : EReal => if (dstIdx m c (ix2 e 0)).toInt = (d.val : ℤ) then v else 0) ?_
  exact Cert.LibGatherScatterRows.gather_rows_apply (by omega) _
    Cert.KernelIdeal.Facts₀.gather_S100000x16_S3300000x1_S3300000x16_1_0_n_n_0_1_116_wf rfl (h1 m c) (srcIdx m c) e k

/-- The second aggregation at (d, q): the sum over the edges into d of the second projection's row at the edge's
    clamped source. -/
theorem agg2_apply (d : Fin 100000) (q : Fin 7) :
    agg2 m c (ix2 d q) = Gcn.gatherAdd (h2 m c) (srcIdx m c) (dstIdx m c) d q := by
  unfold agg2
  refine (Cert.LibGatherScatterRows.scatterAdd_rows_apply _
    Cert.KernelIdeal.Facts₀.scatter_S100000x7_S3300000x1_S3300000x7_1_0_0_1_wf rfl _ (dstIdx m c) _ d q).trans ?_
  rw [broadcastInDim_scalar_apply, constant_apply, Ideal.ofBits_zero_f32, zero_add]
  unfold Gcn.gatherAdd
  refine Finset.sum_congr rfl fun e _ => ?_
  refine congrArg (fun v : EReal => if (dstIdx m c (ix2 e 0)).toInt = (d.val : ℤ) then v else 0) ?_
  exact Cert.LibGatherScatterRows.gather_rows_apply (by omega) _
    Cert.KernelIdeal.Facts₀.gather_S100000x7_S3300000x1_S3300000x7_1_0_n_n_0_1_17_wf rfl (h2 m c) (srcIdx m c) e q

/-- The scale column at (n, 0) is the scale vector at n. -/
theorem dinvCol_apply (n : Fin 100000) : dinvCol m c (ix2 n 0) = dinvVec m c (ix1 n) := by
  unfold dinvCol
  exact ColumnForms.shapeCast_a_a1_apply _ _ n 0

/-- The first bias row at (0, k) is the first bias vector at k. -/
theorem b1Row_apply (k : Fin 16) : b1Row m c (ix2 0 k) = m ((c.tc : Thread nD τ).loc main_arg3) (ix1 k) := by
  unfold b1Row
  exact shapeCast_a_1a_apply _ _ 0 k

/-- The second bias row at (0, q) is the second bias vector at q. -/
theorem b2Row_apply (q : Fin 7) : b2Row m c (ix2 0 q) = m ((c.tc : Thread nD τ).loc main_arg5) (ix1 q) := by
  unfold b2Row
  exact shapeCast_a_1a_apply _ _ 0 q

/-- Every node's scale is a real number. -/
theorem isReal_dinvVec (i : S100000.Idx) : Gcn.IsReal (dinvVec m c i) := by
  unfold dinvVec
  exact Cert.KernelIdeal.isReal_scale (degVec m c) i

end Cert.KernelIdeal.KValue

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.Region0.lean ====
/-
  The first projection kernel, read as one function of the arrays it finds.

  The grid has 25 points; point t stages rows 4000·t … 4000·t + 3999 of the feature matrix x (100000 × 512) and of
  the scale column dv (100000 × 1), the whole weight matrix W₁ (512 × 16) at every point, and writes back rows
  4000·t … 4000·t + 3999 of the result (100000 × 16). The body multiplies the staged rows of x by W₁ (the
  narrowing of both factors to a shorter float format is the identity on the extended reals, and the product
  accumulates into the zero splat, so it is the plain sum of products), then scales row p by dv p.
  Row r of the result therefore depends on row r of x, on W₁ and on dv r only: the point that writes it is r / 4000,
  the 25 row blocks cover the array, and the array ends holding the specification's first projection.
-/
import proofs.«181120_j12592844112334_2_alg».proof.Proof.Gen.KernelIdeal.Frame
import proofs.«181120_j12592844112334_2_alg».proof.Proof.Spec
import proofs.«181120_j12592844112334_2_alg».proof.Proof.LibPlainDot
import proofs.«181120_j12592844112334_2_alg».proof.Proof.LibColumn
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert.KernelIdeal Cert.KernelIdeal.Gen

variable (V : (c : Dev nD) → (b : Ref sig .tc) → Buf (Elt Ideal) ((c : Thread nD τ).loc b)) (c : Dev nD)

/-- The zero offset of a whole-buffer access. -/
theorem hz : (![0, 0] : Fin 2 → Nat) = fun _ => 0 := funext fun a => by fin_cases a <;> rfl

/-- The block indices, decided over the 25 points: x, dv and the result move by row blocks with the point, the
    weights stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What the result array ends holding: the first projection of the arrays found at entry. -/
abbrev G : S100000x16.Idx → EReal :=
  fun i => Gcn.proj1 (V c main_arg0) (V c main_arg2) (V c main_v17) (i 0) (i 1)

/-- The stored value at row p, column q of a block: the staged rows of x times the weights at (p, q), times the
    staged scale of row p. -/
theorem pay_apply (x0 : Vec Ideal S4000x512 .f32) (x1 : Vec Ideal S512x16 .f32) (x2 : Vec Ideal S4000x1 .f32)
    (p : Fin 4000) (q : Fin 16) :
    k0_pay1 (F := Ideal) x0 x1 x2 (ix2 p q) = (∑ k : Fin 512, x0 (ix2 p k) * x1 (ix2 k q)) * x2 (ix2 p 0) := by
  unfold k0_pay1
  refine (mulf_apply _ _ (ix2 p q)).trans ?_
  refine congrArg₂ (· * ·) ?_ ?_
  · exact Cert.LibPlainDot.matmul_plain_zero_apply _ rfl none _ _ p q
  · refine (ColumnForms.broadcastTo_a1_ab_apply _ _ p q).trans ?_
    rw [shapeCast_self]

/-- Row p of the block of x staged at point t is row 4000·t + p of x. -/
theorem x_block (t : Fin cfg0.N) (p : Fin 4000) (k : Fin 512) (r : Fin 100000) (hr : r.val = 4000 * t.val + p.val) :
    (iblk0 V c 0 t : Vec Ideal S4000x512 .f32) (ix2 p k) = (V c main_arg0 : S100000x512.Idx → EReal) (ix2 r k) := by
  obtain ⟨e0, e1, -⟩ := idx_facts t
  show (V c main_arg0 : S100000x512.Idx → EReal) (((cfg0.win 0).blk t).view.emb (ix2 p k)) = _
  refine congrArg (V c main_arg0 : S100000x512.Idx → EReal) ?_
  funext a; apply Fin.ext
  match a with
  | ⟨0, _⟩ => show win0_0.index t (0 : Fin 2) * 4000 + 1 * p.val = r.val; omega
  | ⟨1, _⟩ => show win0_0.index t (1 : Fin 2) * 512 + 1 * k.val = k.val; omega

/-- The block of the weights staged at any point is the weight matrix. -/
theorem w_block (t : Fin cfg0.N) (k : Fin 512) (q : Fin 16) :
    (iblk0 V c 1 t : Vec Ideal S512x16 .f32) (ix2 k q) = (V c main_arg2 : S512x16.Idx → EReal) (ix2 k q) := by
  obtain ⟨-, -, e2, e3, -⟩ := idx_facts t
  show (V c main_arg2 : S512x16.Idx → EReal) (((cfg0.win 1).blk t).view.emb (ix2 k q)) = _
  refine congrArg (V c main_arg2 : S512x16.Idx → EReal) ?_
  funext a; apply Fin.ext
  match a with
  | ⟨0, _⟩ => show win0_1.index t (0 : Fin 2) * 512 + 1 * k.val = k.val; omega
  | ⟨1, _⟩ => show win0_1.index t (1 : Fin 2) * 16 + 1 * q.val = q.val; omega

/-- Row p of the block of scales staged at point t is row 4000·t + p of the scale column. -/
theorem dv_block (t : Fin cfg0.N) (p : Fin 4000) (r : Fin 100000) (hr : r.val = 4000 * t.val + p.val) :
    (iblk0 V c 2 t : Vec Ideal S4000x1 .f32) (ix2 p 0) = (V c main_v17 : S100000x1.Idx → EReal) (ix2 r 0) := by
  obtain ⟨-, -, -, -, e4, e5, -⟩ := idx_facts t
  show (V c main_v17 : S100000x1.Idx → EReal) (((cfg0.win 2).blk t).view.emb (ix2 p 0)) = _
  refine congrArg (V c main_v17 : S100000x1.Idx → EReal) ?_
  funext a; apply Fin.ext
  match a with
  | ⟨0, _⟩ => show win0_2.index t (0 : Fin 2) * 4000 + 1 * p.val = r.val; omega
  | ⟨1, _⟩ => show win0_2.index t (1 : Fin 2) * 1 + 1 * 0 = 0; omega

/-- The body's value at (p, q) of point t's block is the first projection at row 4000·t + p, column q. -/
theorem block_apply (t : Fin cfg0.N) (p : Fin 4000) (q : Fin 16) (r : Fin 100000) (hr : r.val = 4000 * t.val + p.val) :
    k0_pay1 (F := Ideal) (iblk0 V c 0 t) (iblk0 V c 1 t) (iblk0 V c 2 t) (ix2 p q) = G V c (ix2 r q) := by
  refine (pay_apply (iblk0 V c 0 t) (iblk0 V c 1 t) (iblk0 V c 2 t) p q).trans ?_
  show _ = Gcn.proj1 (V c main_arg0) (V c main_arg2) (V c main_v17) r q
  unfold Gcn.proj1
  refine congrArg₂ (· * ·) (Finset.sum_congr rfl fun k _ => ?_) (dv_block V c t p r hr)
  exact congrArg₂ (· * ·) (x_block V c t p k r hr) (w_block V c t k q)

/-- What point t writes back is block t of the first projection. -/
theorem flushed_eq (t : Fin cfg0.N) :
    (dat0 (F := Ideal) V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S4000x512) hz, View.ld_unit_zero (S := S512x16) hz, View.ld_unit_zero (S := S4000x1) hz]
  obtain ⟨-, -, -, -, -, -, e6, e7⟩ := idx_facts t
  funext j
  have hj0 : (j 0).val < 4000 := (j 0).isLt
  have ht : t.val < 25 := lt_of_lt_of_eq t.isLt N_0
  show k0_pay1 (F := Ideal) (iblk0 V c 0 t) (iblk0 V c 1 t) (iblk0 V c 2 t) ((cfg0.win 3).xinj (grid0.coords t) j)
    = G V c (((cfg0.win 3).blk t).view.emb j)
  have hl : (cfg0.win 3).xinj (grid0.coords t) j = ix2 (⟨(j 0).val, hj0⟩ : Fin 4000) (⟨(j 1).val, (j 1).isLt⟩ : Fin 16) := by
    funext a
    match a with
    | ⟨0, _⟩ => rfl
    | ⟨1, _⟩ => rfl
  have hr : ((cfg0.win 3).blk t).view.emb j
      = ix2 (⟨4000 * t.val + (j 0).val, by omega⟩ : Fin 100000) (⟨(j 1).val, (j 1).isLt⟩ : Fin 16) := by
    funext a; apply Fin.ext
    match a with
    | ⟨0, _⟩ => show win0_3.index t (0 : Fin 2) * 4000 + 1 * (j 0).val = 4000 * t.val + (j 0).val; omega
    | ⟨1, _⟩ => show win0_3.index t (1 : Fin 2) * 16 + 1 * (j 1).val = (j 1).val; omega
  rw [hl, hr]
  exact block_apply V c t _ _ _ rfl

/-- An index of the result is in point t's block iff each coordinate is in the block's range on its axis. -/
theorem mem_blk (t : Fin cfg0.N) (i : S100000x16.Idx) :
    i ∈ ((cfg0.win 3).blk t).view.set ↔ ∀ a : Fin 2, win0_3.index t a * S4000x16.size a ≤ (i a).val
      ∧ (i a).val < win0_3.index t a * S4000x16.size a + S4000x16.size a := by
  show i ∈ ((View.whole main_v18).slice (win0_3.rect t)).set ↔ _
  rw [View.set_slice_whole, Rect.mem_set_unit]
  exact Iff.rfl

/-- Every row is in the block of the point row / 4000. -/
theorem cover (i : S100000x16.Idx) :
    ∃ t : Fin cfg0.N, (cfg0.win 3).flush t = true ∧ i ∈ ((cfg0.win 3).blk t).view.set := by
  have h0 : (i 0).val < 100000 := (i 0).isLt
  have h1 : (i 1).val < 16 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 16 ≤ (i 1).val ∧ (i 1).val < win0_3.index t (1 : Fin 2) * 16 + 16
    omega

/-- After the first region its result array holds the first projection of the arrays the region found. -/
theorem region0 : (dat0 (F := Ideal) V c).arrAt 3 cfg0.N
    = fun i => Gcn.proj1 (V c main_arg0) (V c main_arg2) (V c main_v17) (i 0) (i 1) :=
  (dat0 (F := Ideal) V c).arrAt_eq_of_cover 3 (G V c) (fun t _ => flushed_eq V c t) (cover)

end Cert.KernelIdeal.Region0

end
-- ==== Proof.Region1.lean ====
/-
  The second projection kernel, read as one function of the arrays it finds.

  The grid has 20 points; point t stages rows 5000·t … 5000·t + 4999 of the aggregated matrix a (100000 × 16) and of
  the scale column dv (100000 × 1), the whole bias row b₁ (1 × 16) and the whole weight matrix W₂ (16 × 7) at every
  point, and writes back rows 5000·t … 5000·t + 4999 of the result (100000 × 7). The body forms, at row p and
  hidden column k, the maximum of dv p · a (p, k) + b₁ k and zero (the zero word is the real zero), multiplies these
  hidden rows by W₂ (the narrowing of both factors to a shorter float format is the identity on the extended reals,
  and the product accumulates into the zero splat, so it is the plain sum of products), then scales row p by dv p.
  Row r of the result depends on row r of a, on dv r, b₁ and W₂ only: the point that writes it is r / 5000, the 20
  row blocks cover the array, and the array ends holding the specification's second projection.
-/
import proofs.«181120_j12592844112334_2_alg».proof.Proof.Gen.KernelIdeal.Frame
import proofs.«181120_j12592844112334_2_alg».proof.Proof.Spec
import proofs.«181120_j12592844112334_2_alg».proof.Proof.LibPlainDot
import proofs.«181120_j12592844112334_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Region1

open Cert.KernelIdeal Cert.KernelIdeal.Gen

variable (V : (c : Dev nD) → (b : Ref sig .tc) → Buf (Elt Ideal) ((c : Thread nD τ).loc b)) (c : Dev nD)

/-- The zero offset of a whole-buffer access. -/
theorem hz : (![0, 0] : Fin 2 → Nat) = fun _ => 0 := funext fun a => by fin_cases a <;> rfl

/-- The block indices, decided over the 20 points: a, dv and the result move by row blocks with the point, the
    bias row and the weights stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What the result array ends holding: the second projection of the arrays found at entry. -/
abbrev G : S100000x7.Idx → EReal :=
  fun i => Gcn.proj2 (V c main_v28) (V c main_v17) (V c main_v29) (V c main_arg4) (i 0) (i 1)

/-- The stored value at row p, column q of a block: the hidden rows (the maximum of scale · a + bias and zero) times
    the weights at (p, q), times the staged scale of row p. The scale column is loaded twice; both loads are kept. -/
theorem pay_apply (dv : Vec Ideal S5000x1 .f32) (a : Vec Ideal S5000x16 .f32) (b : Vec Ideal S1x16 .f32)
    (w : Vec Ideal S16x7 .f32) (dv' : Vec Ideal S5000x1 .f32) (p : Fin 5000) (q : Fin 7) :
    k1_pay1 (F := Ideal) dv a b w dv' (ix2 p q)
      = (∑ k : Fin 16, max (dv (ix2 p 0) * a (ix2 p k) + b (ix2 0 k)) 0 * w (ix2 k q)) * dv' (ix2 p 0) := by
  unfold k1_pay1
  refine (mulf_apply _ _ (ix2 p q)).trans ?_
  refine congrArg₂ (· * ·) ?_ ?_
  · refine (Cert.LibPlainDot.matmul_plain_zero_apply _ rfl none _ _ p q).trans ?_
    refine Finset.sum_congr rfl fun k _ => ?_
    refine congrArg₂ (· * ·) ?_ rfl
    refine (maximumf_apply _ _ (ix2 p k)).trans ?_
    refine congrArg₂ max ?_ Ideal.ofBits_zero_f32
    refine (addf_apply _ _ (ix2 p k)).trans ?_
    refine congrArg₂ (· + ·) ?_ ?_
    · refine (mulf_apply _ _ (ix2 p k)).trans ?_
      refine congrArg₂ (· * ·) ?_ ?_
      · refine (ColumnForms.broadcastTo_a1_ab_apply _ _ p k).trans ?_
        rw [shapeCast_self]
      · rw [shapeCast_self]
    · refine (broadcastTo_1b_ab_apply _ _ p k).trans ?_
      rw [shapeCast_self]
  · refine (ColumnForms.broadcastTo_a1_ab_apply _ _ p q).trans ?_
    rw [shapeCast_self]

/-- Row p of the block of a staged at point t is row 5000·t + p of a. -/
theorem a_block (t : Fin cfg1.N) (p : Fin 5000) (k : Fin 16) (r : Fin 100000) (hr : r.val = 5000 * t.val + p.val) :
    (iblk1 V c 0 t : Vec Ideal S5000x16 .f32) (ix2 p k) = (V c main_v28 : S100000x16.Idx → EReal) (ix2 r k) := by
  obtain ⟨e0, e1, -⟩ := idx_facts t
  show (V c main_v28 : S100000x16.Idx → EReal) (((cfg1.win 0).blk t).view.emb (ix2 p k)) = _
  refine congrArg (V c main_v28 : S100000x16.Idx → EReal) ?_
  funext x; apply Fin.ext
  match x with
  | ⟨0, _⟩ => show win1_0.index t (0 : Fin 2) * 5000 + 1 * p.val = r.val; omega
  | ⟨1, _⟩ => show win1_0.index t (1 : Fin 2) * 16 + 1 * k.val = k.val; omega

/-- Row p of the block of scales staged at point t is row 5000·t + p of the scale column. -/
theorem dv_block (t : Fin cfg1.N) (p : Fin 5000) (r : Fin 100000) (hr : r.val = 5000 * t.val + p.val) :
    (iblk1 V c 1 t : Vec Ideal S5000x1 .f32) (ix2 p 0) = (V c main_v17 : S100000x1.Idx → EReal) (ix2 r 0) := by
  obtain ⟨-, -, e2, e3, -⟩ := idx_facts t
  show (V c main_v17 : S100000x1.Idx → EReal) (((cfg1.win 1).blk t).view.emb (ix2 p 0)) = _
  refine congrArg (V c main_v17 : S100000x1.Idx → EReal) ?_
  funext x; apply Fin.ext
  match x with
  | ⟨0, _⟩ => show win1_1.index t (0 : Fin 2) * 5000 + 1 * p.val = r.val; omega
  | ⟨1, _⟩ => show win1_1.index t (1 : Fin 2) * 1 + 1 * 0 = 0; omega

/-- The block of the bias row staged at any point is the bias row. -/
theorem b_block (t : Fin cfg1.N) (k : Fin 16) :
    (iblk1 V c 2 t : Vec Ideal S1x16 .f32) (ix2 0 k) = (V c main_v29 : S1x16.Idx → EReal) (ix2 0 k) := by
  obtain ⟨-, -, -, -, e4, e5, -⟩ := idx_facts t
  show (V c main_v29 : S1x16.Idx → EReal) (((cfg1.win 2).blk t).view.emb (ix2 0 k)) = _
  refine congrArg (V c main_v29 : S1x16.Idx → EReal) ?_
  funext x; apply Fin.ext
  match x with
  | ⟨0, _⟩ => show win1_2.index t (0 : Fin 2) * 1 + 1 * 0 = 0; omega
  | ⟨1, _⟩ => show win1_2.index t (1 : Fin 2) * 16 + 1 * k.val = k.val; omega

/-- The block of the weights staged at any point is the weight matrix. -/
theorem w_block (t : Fin cfg1.N) (k : Fin 16) (q : Fin 7) :
    (iblk1 V c 3 t : Vec Ideal S16x7 .f32) (ix2 k q) = (V c main_arg4 : S16x7.Idx → EReal) (ix2 k q) := by
  obtain ⟨-, -, -, -, -, -, e6, e7, -⟩ := idx_facts t
  show (V c main_arg4 : S16x7.Idx → EReal) (((cfg1.win 3).blk t).view.emb (ix2 k q)) = _
  refine congrArg (V c main_arg4 : S16x7.Idx → EReal) ?_
  funext x; apply Fin.ext
  match x with
  | ⟨0, _⟩ => show win1_3.index t (0 : Fin 2) * 16 + 1 * k.val = k.val; omega
  | ⟨1, _⟩ => show win1_3.index t (1 : Fin 2) * 7 + 1 * q.val = q.val; omega

/-- The body's value at (p, q) of point t's block is the second projection at row 5000·t + p, column q. -/
theorem block_apply (t : Fin cfg1.N) (p : Fin 5000) (q : Fin 7) (r : Fin 100000) (hr : r.val = 5000 * t.val + p.val) :
    k1_pay1 (F := Ideal) (iblk1 V c 1 t) (iblk1 V c 0 t) (iblk1 V c 2 t) (iblk1 V c 3 t) (iblk1 V c 1 t) (ix2 p q)
      = G V c (ix2 r q) := by
  refine (pay_apply (iblk1 V c 1 t) (iblk1 V c 0 t) (iblk1 V c 2 t) (iblk1 V c 3 t) (iblk1 V c 1 t) p q).trans ?_
  show _ = Gcn.proj2 (V c main_v28) (V c main_v17) (V c main_v29) (V c main_arg4) r q
  unfold Gcn.proj2 Gcn.hidden
  refine congrArg₂ (· * ·) (Finset.sum_congr rfl fun k _ => ?_) (dv_block V c t p r hr)
  refine congrArg₂ (· * ·) ?_ (w_block V c t k q)
  refine congrArg₂ max ?_ rfl
  refine congrArg₂ (· + ·) ?_ (b_block V c t k)
  exact congrArg₂ (· * ·) (dv_block V c t p r hr) (a_block V c t p k r hr)

/-- What point t writes back is block t of the second projection. -/
theorem flushed_eq (t : Fin cfg1.N) :
    (dat1 (F := Ideal) V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x16) hz, View.ld_unit_zero (S := S5000x1) hz,
    View.ld_unit_zero (S := S1x16) hz, View.ld_unit_zero (S := S16x7) hz]
  obtain ⟨-, -, -, -, -, -, -, -, e8, e9⟩ := idx_facts t
  funext j
  have hj0 : (j 0).val < 5000 := (j 0).isLt
  have ht : t.val < 20 := lt_of_lt_of_eq t.isLt N_1
  show k1_pay1 (F := Ideal) (iblk1 V c 1 t) (iblk1 V c 0 t) (iblk1 V c 2 t) (iblk1 V c 3 t) (iblk1 V c 1 t)
      ((cfg1.win 4).xinj (grid1.coords t) j)
    = G V c (((cfg1.win 4).blk t).view.emb j)
  have hl : (cfg1.win 4).xinj (grid1.coords t) j = ix2 (⟨(j 0).val, hj0⟩ : Fin 5000) (⟨(j 1).val, (j 1).isLt⟩ : Fin 7) := by
    funext x
    match x with
    | ⟨0, _⟩ => rfl
    | ⟨1, _⟩ => rfl
  have hr : ((cfg1.win 4).blk t).view.emb j
      = ix2 (⟨5000 * t.val + (j 0).val, by omega⟩ : Fin 100000) (⟨(j 1).val, (j 1).isLt⟩ : Fin 7) := by
    funext x; apply Fin.ext
    match x with
    | ⟨0, _⟩ => show win1_4.index t (0 : Fin 2) * 5000 + 1 * (j 0).val = 5000 * t.val + (j 0).val; omega
    | ⟨1, _⟩ => show win1_4.index t (1 : Fin 2) * 7 + 1 * (j 1).val = (j 1).val; omega
  rw [hl, hr]
  exact block_apply V c t _ _ _ rfl

/-- An index of the result is in point t's block iff each coordinate is in the block's range on its axis. -/
theorem mem_blk (t : Fin cfg1.N) (i : S100000x7.Idx) :
    i ∈ ((cfg1.win 4).blk t).view.set ↔ ∀ a : Fin 2, win1_4.index t a * S5000x7.size a ≤ (i a).val
      ∧ (i a).val < win1_4.index t a * S5000x7.size a + S5000x7.size a := by
  show i ∈ ((View.whole main_v30).slice (win1_4.rect t)).set ↔ _
  rw [View.set_slice_whole, Rect.mem_set_unit]
  exact Iff.rfl

/-- Every row is in the block of the point row / 5000. -/
theorem cover (i : S100000x7.Idx) :
    ∃ t : Fin cfg1.N, (cfg1.win 4).flush t = true ∧ i ∈ ((cfg1.win 4).blk t).view.set := by
  have h0 : (i 0).val < 100000 := (i 0).isLt
  have h1 : (i 1).val < 7 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, e8, e9⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 7 ≤ (i 1).val ∧ (i 1).val < win1_4.index t (1 : Fin 2) * 7 + 7
    omega

/-- After the second region its result array holds the second projection of the arrays the region found. -/
theorem region1 : (dat1 (F := Ideal) V c).arrAt 4 cfg1.N
    = fun i => Gcn.proj2 (V c main_v28) (V c main_v17) (V c main_v29) (V c main_arg4) (i 0) (i 1) :=
  (dat1 (F := Ideal) V c).arrAt_eq_of_cover 4 (G V c) (fun t _ => flushed_eq V c t) (cover)

end Cert.KernelIdeal.Region1

end
-- ==== Proof.Region2.lean ====
/-
  The output kernel, read as one function of the arrays it finds.

  The grid has 20 points; point t stages rows 5000·t … 5000·t + 4999 of the aggregated matrix a (100000 × 7) and of the
  scale column dv (100000 × 1), the whole bias row b₂ (1 × 7) at every point, and writes back rows
  5000·t … 5000·t + 4999 of the result (100000 × 7). The body forms the logits z (p, q) = dv p · a (p, q) + b₂ q, takes
  along each row of seven the maximum (folded from the word of −∞, which is the bottom element) and subtracts it,
  exponentiates, sums each row (from the zero word), takes the logarithm of the row sums and subtracts it: the
  log-softmax of the row. Row r of the result depends on row r of a, on dv r and on b₂ only: the point that writes
  it is r / 5000, the 20 row blocks cover the array, and the array ends holding the specification's output stage.
-/
import proofs.«181120_j12592844112334_2_alg».proof.Proof.Gen.KernelIdeal.Frame
import proofs.«181120_j12592844112334_2_alg».proof.Proof.Spec
import proofs.«181120_j12592844112334_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Region2

open Cert.KernelIdeal Cert.KernelIdeal.Gen

variable (V : (c : Dev nD) → (b : Ref sig .tc) → Buf (Elt Ideal) ((c : Thread nD τ).loc b)) (c : Dev nD)

/-- The zero offset of a whole-buffer access. -/
theorem hz : (![0, 0] : Fin 2 → Nat) = fun _ => 0 := funext fun a => by fin_cases a <;> rfl

/-- The block indices, decided over the 20 points: a, dv and the result move by row blocks with the point, the
    bias row stays at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the result array ends holding: the output stage of the arrays found at entry. -/
abbrev G : S100000x7.Idx → EReal :=
  fun i => Gcn.outStage (V c main_v40) (V c main_v17) (V c main_v41) (i 0) (i 1)

/-! ## The row reductions read at a row -/

/-- The word of −∞ is the bottom element. -/
theorem bot_word : Ideal.ofBits .f32 0xFF800000#32 = ⊥ := by simp [Ideal.ofBits, Ideal.ieee]

/-- A row index with the column coordinate put back is (row, column). -/
theorem lift_row (h : S5000x7.Reduces [1] S5000) (p : Fin 5000) (k : Fin (S5000x7.size 1)) :
    h.lift (ix1 p) k = ix2 p (⟨k.val, k.isLt⟩ : Fin 7) := by
  funext x; apply Fin.ext
  fin_cases x <;> rfl

/-- The lane maximum from −∞ along a row of seven is the row's maximum from the bottom element. -/
theorem rowmax_apply (z : FVec Ideal S5000x7 .f32) (h : S5000x7.Reduces [1] S5000) (hφ : FKind.Formats .f32)
    (hacc : (0xFF800000#32 : BitVec (FTy.bits .f32)) = FKind.maximumf.neutral .f32 hφ) (p : Fin 5000) :
    multiReduction .maximumf [1] S5000 z 0xFF800000#32 h hφ hacc (ix1 p) = Gcn.rowMax (fun j => z (ix2 p j)) := by
  refine (Ideal.multiReduction_maximumf_single z _ h hφ hacc (ix1 p)).trans ?_
  unfold Gcn.rowMax
  have hf : (z ∘ h.lift (ix1 p)) = fun j : Fin 7 => z (ix2 p j) := funext fun k => congrArg z (lift_row h p k)
  show Finset.fold max (Ideal.ofBits .f32 0xFF800000#32) (z ∘ h.lift (ix1 p)) (Finset.univ : Finset (Fin 7)) = _
  rw [bot_word]
  exact congrArg (fun f => Finset.fold max (⊥ : EReal) f (Finset.univ : Finset (Fin 7))) hf

/-- The lane sum from zero along a row of seven is the row's sum. -/
theorem rowsum_apply (e : FVec Ideal S5000x7 .f32) (h : S5000x7.Reduces [1] S5000) (hφ : FKind.Formats .f32)
    (hacc : (0x00000000#32 : BitVec (FTy.bits .f32)) = FKind.add.neutral .f32 hφ) (p : Fin 5000) :
    multiReduction .add [1] S5000 e 0x00000000#32 h hφ hacc (ix1 p) = ∑ j : Fin 7, e (ix2 p j) := by
  refine (Ideal.multiReduction_add_single e _ h hφ hacc (ix1 p)).trans ?_
  exact Finset.sum_congr rfl fun k _ => congrArg e (lift_row h p k)

/-- The exponential and the logarithm of a vector, read at an index. -/
theorem exp_apply {s : Shape} (x : FVec Ideal s .f32) (i : s.Idx) : Idealize.ShloMosaic.exp x i = Ideal.exp (x i) := rfl
theorem log_apply {s : Shape} (x : FVec Ideal s .f32) (i : s.Idx) : Idealize.ShloMosaic.log x i = Ideal.log (x i) := rfl

/-! ## The body's value at an index -/

/-- The logits at (p, j): the scale of row p times a (p, j), plus the bias of column j. -/
theorem logits_apply (dv : FVec Ideal S5000x1 .f32) (a : FVec Ideal S5000x7 .f32) (b : FVec Ideal S1x7 .f32)
    (h1 : S5000x1.ShapeCasts S5000x1) (h2 : S5000x1.Broadcasts S5000x7) (h3 : S5000x7.ShapeCasts S5000x7)
    (h4 : S1x7.ShapeCasts S1x7) (h5 : S1x7.Broadcasts S5000x7) (p : Fin 5000) (j : Fin 7) :
    addf (mulf (broadcastTo S5000x7 (shapeCast S5000x1 dv h1) h2) (shapeCast S5000x7 a h3))
        (broadcastTo S5000x7 (shapeCast S1x7 b h4) h5) (ix2 p j)
      = dv (ix2 p 0) * a (ix2 p j) + b (ix2 0 j) := by
  refine (addf_apply _ _ (ix2 p j)).trans ?_
  refine congrArg₂ (· + ·) ?_ ?_
  · refine (mulf_apply _ _ (ix2 p j)).trans ?_
    refine congrArg₂ (· * ·) ?_ ?_
    · refine (ColumnForms.broadcastTo_a1_ab_apply _ _ p j).trans ?_
      rw [shapeCast_self]
    · rw [shapeCast_self]
  · refine (broadcastTo_1b_ab_apply _ _ p j).trans ?_
    rw [shapeCast_self]

/-- From the logits on: subtract the row maximum, then the logarithm of the row sum of the exponentials — the
    log-softmax of the row, at column q. -/
theorem tail_apply (z : FVec Ideal S5000x7 .f32) (h : S5000x7.Reduces [1] S5000) (hφ hφ' : FKind.Formats .f32)
    (hacc : (0xFF800000#32 : BitVec (FTy.bits .f32)) = FKind.maximumf.neutral .f32 hφ)
    (hacc' : (0x00000000#32 : BitVec (FTy.bits .f32)) = FKind.add.neutral .f32 hφ')
    (hsc : S5000.ShapeCasts S5000x1) (hbc : S5000x1.Broadcasts S5000x7) (p : Fin 5000) (q : Fin 7) :
    subf (subf z (broadcastTo S5000x7 (shapeCast S5000x1 (multiReduction .maximumf [1] S5000 z 0xFF800000#32 h hφ hacc) hsc) hbc))
      (broadcastTo S5000x7 (Idealize.ShloMosaic.log (shapeCast S5000x1 (multiReduction .add [1] S5000
        (Idealize.ShloMosaic.exp (subf z (broadcastTo S5000x7 (shapeCast S5000x1
          (multiReduction .maximumf [1] S5000 z 0xFF800000#32 h hφ hacc) hsc) hbc)))
        0x00000000#32 h hφ' hacc') hsc)) hbc) (ix2 p q)
      = Gcn.logSoftmaxRow (fun j => z (ix2 p j)) q := by
  have hmax : ∀ j : Fin 7,
      broadcastTo S5000x7 (shapeCast S5000x1 (multiReduction .maximumf [1] S5000 z 0xFF800000#32 h hφ hacc) hsc) hbc (ix2 p j)
        = Gcn.rowMax (fun j => z (ix2 p j)) := fun j =>
    (ColumnForms.broadcastTo_a1_ab_apply _ hbc p j).trans
      ((ColumnForms.shapeCast_a_a1_apply _ hsc p 0).trans (rowmax_apply z h hφ hacc p))
  have hsub : ∀ j : Fin 7,
      subf z (broadcastTo S5000x7 (shapeCast S5000x1 (multiReduction .maximumf [1] S5000 z 0xFF800000#32 h hφ hacc) hsc) hbc) (ix2 p j)
        = z (ix2 p j) - Gcn.rowMax (fun j => z (ix2 p j)) := fun j =>
    (subf_apply _ _ (ix2 p j)).trans (congrArg (z (ix2 p j) - ·) (hmax j))
  refine (subf_apply _ _ (ix2 p q)).trans ?_
  unfold Gcn.logSoftmaxRow
  refine congrArg₂ (· - ·) (hsub q) ?_
  refine (ColumnForms.broadcastTo_a1_ab_apply _ hbc p q).trans ?_
  refine (log_apply _ (ix2 p 0)).trans (congrArg Ideal.log ?_)
  refine (ColumnForms.shapeCast_a_a1_apply _ hsc p 0).trans ?_
  refine (rowsum_apply _ h hφ' hacc' p).trans ?_
  exact Finset.sum_congr rfl fun j _ => (exp_apply _ (ix2 p j)).trans (congrArg Ideal.exp (hsub j))

/-- The stored value at row p, column q of a block: the log-softmax of the row of logits. -/
theorem pay_apply (dv : Vec Ideal S5000x1 .f32) (a : Vec Ideal S5000x7 .f32) (b : Vec Ideal S1x7 .f32)
    (p : Fin 5000) (q : Fin 7) :
    k2_pay1 (F := Ideal) dv a b (ix2 p q)
      = Gcn.logSoftmaxRow (fun j => dv (ix2 p 0) * a (ix2 p j) + b (ix2 0 j)) q := by
  unfold k2_pay1
  refine (tail_apply _ _ _ _ _ _ _ _ p q).trans ?_
  exact congrArg (fun z => Gcn.logSoftmaxRow z q) (funext fun j => logits_apply dv a b _ _ _ _ _ p j)

/-! ## From blocks to the array -/

/-- Row p of the block of a staged at point t is row 5000·t + p of a. -/
theorem a_block (t : Fin cfg2.N) (p : Fin 5000) (k : Fin 7) (r : Fin 100000) (hr : r.val = 5000 * t.val + p.val) :
    (iblk2 V c 0 t : Vec Ideal S5000x7 .f32) (ix2 p k) = (V c main_v40 : S100000x7.Idx → EReal) (ix2 r k) := by
  obtain ⟨e0, e1, -⟩ := idx_facts t
  show (V c main_v40 : S100000x7.Idx → EReal) (((cfg2.win 0).blk t).view.emb (ix2 p k)) = _
  refine congrArg (V c main_v40 : S100000x7.Idx → EReal) ?_
  funext x; apply Fin.ext
  match x with
  | ⟨0, _⟩ => show win2_0.index t (0 : Fin 2) * 5000 + 1 * p.val = r.val; omega
  | ⟨1, _⟩ => show win2_0.index t (1 : Fin 2) * 7 + 1 * k.val = k.val; omega

/-- Row p of the block of scales staged at point t is row 5000·t + p of the scale column. -/
theorem dv_block (t : Fin cfg2.N) (p : Fin 5000) (r : Fin 100000) (hr : r.val = 5000 * t.val + p.val) :
    (iblk2 V c 1 t : Vec Ideal S5000x1 .f32) (ix2 p 0) = (V c main_v17 : S100000x1.Idx → EReal) (ix2 r 0) := by
  obtain ⟨-, -, e2, e3, -⟩ := idx_facts t
  show (V c main_v17 : S100000x1.Idx → EReal) (((cfg2.win 1).blk t).view.emb (ix2 p 0)) = _
  refine congrArg (V c main_v17 : S100000x1.Idx → EReal) ?_
  funext x; apply Fin.ext
  match x with
  | ⟨0, _⟩ => show win2_1.index t (0 : Fin 2) * 5000 + 1 * p.val = r.val; omega
  | ⟨1, _⟩ => show win2_1.index t (1 : Fin 2) * 1 + 1 * 0 = 0; omega

/-- The block of the bias row staged at any point is the bias row. -/
theorem b_block (t : Fin cfg2.N) (k : Fin 7) :
    (iblk2 V c 2 t : Vec Ideal S1x7 .f32) (ix2 0 k) = (V c main_v41 : S1x7.Idx → EReal) (ix2 0 k) := by
  obtain ⟨-, -, -, -, e4, e5, -⟩ := idx_facts t
  show (V c main_v41 : S1x7.Idx → EReal) (((cfg2.win 2).blk t).view.emb (ix2 0 k)) = _
  refine congrArg (V c main_v41 : S1x7.Idx → EReal) ?_
  funext x; apply Fin.ext
  match x with
  | ⟨0, _⟩ => show win2_2.index t (0 : Fin 2) * 1 + 1 * 0 = 0; omega
  | ⟨1, _⟩ => show win2_2.index t (1 : Fin 2) * 7 + 1 * k.val = k.val; omega

/-- The body's value at (p, q) of point t's block is the output stage at row 5000·t + p, column q. -/
theorem block_apply (t : Fin cfg2.N) (p : Fin 5000) (q : Fin 7) (r : Fin 100000) (hr : r.val = 5000 * t.val + p.val) :
    k2_pay1 (F := Ideal) (iblk2 V c 1 t) (iblk2 V c 0 t) (iblk2 V c 2 t) (ix2 p q) = G V c (ix2 r q) := by
  refine (pay_apply (iblk2 V c 1 t) (iblk2 V c 0 t) (iblk2 V c 2 t) p q).trans ?_
  show _ = Gcn.outStage (V c main_v40) (V c main_v17) (V c main_v41) r q
  unfold Gcn.outStage Gcn.logits
  refine congrArg (fun z => Gcn.logSoftmaxRow z q) (funext fun j => ?_)
  exact congrArg₂ (· + ·) (congrArg₂ (· * ·) (dv_block V c t p r hr) (a_block V c t p j r hr)) (b_block V c t j)

/-- What point t writes back is block t of the output stage. -/
theorem flushed_eq (t : Fin cfg2.N) :
    (dat2 (F := Ideal) V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x7) hz, View.ld_unit_zero (S := S5000x1) hz, View.ld_unit_zero (S := S1x7) hz]
  obtain ⟨-, -, -, -, -, -, e6, e7⟩ := idx_facts t
  funext j
  have hj0 : (j 0).val < 5000 := (j 0).isLt
  have ht : t.val < 20 := lt_of_lt_of_eq t.isLt N_2
  show k2_pay1 (F := Ideal) (iblk2 V c 1 t) (iblk2 V c 0 t) (iblk2 V c 2 t) ((cfg2.win 3).xinj (grid2.coords t) j)
    = G V c (((cfg2.win 3).blk t).view.emb j)
  have hl : (cfg2.win 3).xinj (grid2.coords t) j = ix2 (⟨(j 0).val, hj0⟩ : Fin 5000) (⟨(j 1).val, (j 1).isLt⟩ : Fin 7) := by
    funext x
    match x with
    | ⟨0, _⟩ => rfl
    | ⟨1, _⟩ => rfl
  have hr : ((cfg2.win 3).blk t).view.emb j
      = ix2 (⟨5000 * t.val + (j 0).val, by omega⟩ : Fin 100000) (⟨(j 1).val, (j 1).isLt⟩ : Fin 7) := by
    funext x; apply Fin.ext
    match x with
    | ⟨0, _⟩ => show win2_3.index t (0 : Fin 2) * 5000 + 1 * (j 0).val = 5000 * t.val + (j 0).val; omega
    | ⟨1, _⟩ => show win2_3.index t (1 : Fin 2) * 7 + 1 * (j 1).val = (j 1).val; omega
  rw [hl, hr]
  exact block_apply V c t _ _ _ rfl

/-- An index of the result is in point t's block iff each coordinate is in the block's range on its axis. -/
theorem mem_blk (t : Fin cfg2.N) (i : S100000x7.Idx) :
    i ∈ ((cfg2.win 3).blk t).view.set ↔ ∀ a : Fin 2, win2_3.index t a * S5000x7.size a ≤ (i a).val
      ∧ (i a).val < win2_3.index t a * S5000x7.size a + S5000x7.size a := by
  show i ∈ ((View.whole main_v42).slice (win2_3.rect t)).set ↔ _
  rw [View.set_slice_whole, Rect.mem_set_unit]
  exact Iff.rfl

/-- Every row is in the block of the point row / 5000. -/
theorem cover (i : S100000x7.Idx) :
    ∃ t : Fin cfg2.N, (cfg2.win 3).flush t = true ∧ i ∈ ((cfg2.win 3).blk t).view.set := by
  have h0 : (i 0).val < 100000 := (i 0).isLt
  have h1 : (i 1).val < 7 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, e6, e7⟩ := idx_facts t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 7 ≤ (i 1).val ∧ (i 1).val < win2_3.index t (1 : Fin 2) * 7 + 7
    omega

/-- After the third region its result array holds the output stage of the arrays the region found. -/
theorem region2 : (dat2 (F := Ideal) V c).arrAt 3 cfg2.N
    = fun i => Gcn.outStage (V c main_v40) (V c main_v17) (V c main_v41) (i 0) (i 1) :=
  (dat2 (F := Ideal) V c).arrAt_eq_of_cover 3 (G V c) (fun t _ => flushed_eq V c t) (cover)

end Cert.KernelIdeal.Region2

end
-- ==== Proof.RefSpec.lean ====
/-
  The reference's arrangement of the same two-layer graph convolution, as pure functions on the extended reals.

  The reference weighs every edge by the product of its two endpoints' scales (each endpoint word read clamped
  into the node range), multiplies the source's projected row by that weight, and adds the products up per
  destination; then the bias, the relu, the second projection, the same aggregation, the bias and the log-softmax.
-/
import proofs.«181120_j12592844112334_2_alg».proof.Proof.Spec

noncomputable section

namespace Cert.Gcn

open Idealize.ShloMosaic Idealize.ShloMosaic.ValueIdx
open scoped BigOperators

/-- A vector of n extended reals, indexed as the programs index a rank-1 array. -/
abbrev Vec (n : ℕ) := (⟨1, ![n]⟩ : Shape).Idx → EReal

/-- One 32-bit word per edge, as a one-column array. -/
abbrev EdgeWords := (⟨2, ![3300000, 1]⟩ : Shape).Idx → BitVec 32

/-- Entry (n, k) of x · W₁. -/
def xw (x : Mat 100000 512) (w : Mat 512 16) (n : Fin 100000) (k : Fin 16) : EReal :=
  ∑ l : Fin 512, x (ix2 n l) * w (ix2 l k)

/-- An edge's weight: the scale of its (clamped) source times the scale of its (clamped) destination. -/
def edgeNorm (dinv : Vec 100000) (srcW dstWr : EdgeWords) (e : Fin 3300000) : EReal :=
  dinv (ix1 (clampRow 100000 (by decide) (srcW (ix2 e 0)))) * dinv (ix1 (clampRow 100000 (by decide) (dstWr (ix2 e 0))))

/-- The normalized aggregation: entry (d, q) is the sum over the edges `e` whose destination word `dstW e`, read
    signed, is `d`, of the edge's weight times the entry (clamped source of e, q) of `h`. -/
def normAdd {D : ℕ} (h : Fin 100000 → Fin D → EReal) (dinv : Vec 100000) (srcW dstWr dstW : EdgeWords)
    (d : Fin 100000) (q : Fin D) : EReal :=
  ∑ e : Fin 3300000, if (dstW (ix2 e 0)).toInt = (d.val : ℤ) then
    edgeNorm dinv srcW dstWr e * h (clampRow 100000 (by decide) (srcW (ix2 e 0))) q else 0

/-- The reference's hidden layer: relu (aggregate of x · W₁ + b₁). -/
def refHidden (x : Mat 100000 512) (w1 : Mat 512 16) (b1 : Vec 16) (dinv : Vec 100000) (srcW dstWr dstW : EdgeWords)
    (n : Fin 100000) (k : Fin 16) : EReal :=
  max (normAdd (xw x w1) dinv srcW dstWr dstW n k + b1 (ix1 k)) 0

/-- Entry (n, j) of hidden · W₂. -/
def refHW (x : Mat 100000 512) (w1 : Mat 512 16) (b1 : Vec 16) (w2 : Mat 16 7) (dinv : Vec 100000) (srcW dstWr dstW : EdgeWords)
    (n : Fin 100000) (j : Fin 7) : EReal :=
  ∑ k : Fin 16, refHidden x w1 b1 dinv srcW dstWr dstW n k * w2 (ix2 k j)

/-- The reference's logits: aggregate of hidden · W₂, plus b₂. -/
def refLogits (x : Mat 100000 512) (w1 : Mat 512 16) (b1 : Vec 16) (w2 : Mat 16 7) (b2 : Vec 7) (dinv : Vec 100000)
    (srcW dstWr dstW : EdgeWords) (p : Fin 100000) (q : Fin 7) : EReal :=
  normAdd (refHW x w1 b1 w2 dinv srcW dstWr dstW) dinv srcW dstWr dstW p q + b2 (ix1 q)

/-- The reference's result: log-softmax of the logits' row p, at column q. -/
def refOut (x : Mat 100000 512) (w1 : Mat 512 16) (b1 : Vec 16) (w2 : Mat 16 7) (b2 : Vec 7) (dinv : Vec 100000)
    (srcW dstWr dstW : EdgeWords) (p : Fin 100000) (q : Fin 7) : EReal :=
  logSoftmaxRow (fun j => refLogits x w1 b1 w2 b2 dinv srcW dstWr dstW p j) q

end Cert.Gcn

end
-- ==== Proof.RefValue.lean ====
/-
  The reference's result, read at an index: the program's last value at row p and column q is the log-softmax of
  the logits' row p at q, the logits being the normalized aggregation of (hidden · W₂) plus b₂, the hidden layer the
  relu of the normalized aggregation of (x · W₁) plus b₁. Each layer is read off the operations that compute it: an
  edge's weight is the product of two gathered scales; a gather of rows reads the row its (clamped) start word names;
  a scatter-add into zeros is the sum over the edges sent to the row; the row maximum is a fold of max from the bottom
  element, the row sum a finite sum. The scale vector and the three columns of index words stay opaque throughout.
-/
import proofs.«181120_j12592844112334_2_alg».proof.Proof.RefRead
import proofs.«181120_j12592844112334_2_alg».proof.Proof.RefSpec
import proofs.«181120_j12592844112334_2_alg».proof.Proof.LibGatherScatterRows
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.LibGatherScatterRows

/-! ## Two words -/

/-- The all-zero word is the real number zero. -/
theorem zeroWord : FloatOps.ofBits (F := Ideal) .f32 0x00000000#32 = (0 : EReal) := Ideal.ofBits_zero_f32

/-- The word of minus infinity is the bottom element. -/
theorem negInfWord : FloatOps.ofBits (F := Ideal) .f32 0xFF800000#32 = (⊥ : EReal) := by
  show Ideal.ofBits .f32 0xFF800000#32 = ⊥
  simp [Ideal.ofBits, Ideal.ieee]

/-! ## Index maps at explicit coordinates -/

theorem lidx32 (n : Fin 100000) (k : Fin 16) (l : Fin 512) : lidx_main_v32 (ix2 n k) l = ix2 n l :=
  funext fun a => Fin.ext (by match a with | ⟨0, _⟩ => rfl | ⟨1, _⟩ => rfl)
theorem ridx32 (n : Fin 100000) (k : Fin 16) (l : Fin 512) : ridx_main_v32 (ix2 n k) l = ix2 l k :=
  funext fun a => Fin.ext (by match a with | ⟨0, _⟩ => rfl | ⟨1, _⟩ => rfl)
theorem lidx50 (n : Fin 100000) (j : Fin 7) (k : Fin 16) : lidx_main_v50 (ix2 n j) k = ix2 n k :=
  funext fun a => Fin.ext (by match a with | ⟨0, _⟩ => rfl | ⟨1, _⟩ => rfl)
theorem ridx50 (n : Fin 100000) (j : Fin 7) (k : Fin 16) : ridx_main_v50 (ix2 n j) k = ix2 k j :=
  funext fun a => Fin.ext (by match a with | ⟨0, _⟩ => rfl | ⟨1, _⟩ => rfl)
theorem idx33_41 (e : Fin 3300000) (k : Fin 16) : idx_main_v33 (idx_main_v41 (ix2 e k)) = ix1 e :=
  funext fun a => Fin.ext (by match a with | ⟨0, _⟩ => rfl)
theorem idx51_59 (e : Fin 3300000) (j : Fin 7) : idx_main_v51 (idx_main_v59 (ix2 e j)) = ix1 e :=
  funext fun a => Fin.ext (by match a with | ⟨0, _⟩ => rfl)
theorem idx46_47 (n : Fin 100000) (k : Fin 16) : idx_main_v46 (idx_main_v47 (ix2 n k)) = ix1 k :=
  funext fun a => Fin.ext (by match a with | ⟨0, _⟩ => rfl)
theorem idx64_65 (p : Fin 100000) (q : Fin 7) : idx_main_v64 (idx_main_v65 (ix2 p q)) = ix1 q :=
  funext fun a => Fin.ext (by match a with | ⟨0, _⟩ => rfl)
theorem idxc3_c4 (p : Fin 100000) (q : Fin 7) : idx_main_call2_v3 (idx_main_call2_v4 (ix2 p q)) = ix1 p :=
  funext fun a => Fin.ext (by match a with | ⟨0, _⟩ => rfl)
theorem idxc8_c10 (p : Fin 100000) (q : Fin 7) : idx_main_call2_v8 (idx_main_call2_v10 (ix2 p q)) = ix1 p :=
  funext fun a => Fin.ext (by match a with | ⟨0, _⟩ => rfl)
theorem idxc7 (p : Fin 100000) (k : Fin 7) : idx_main_call2_v7 (ix1 p) k = ix2 p k :=
  funext fun a => Fin.ext (by match a with | ⟨0, _⟩ => rfl | ⟨1, _⟩ => rfl)

section
variable (x0 : (⟨S100000x512, .f32⟩ : BufTy).Contents (Elt Ideal)) (x1 : (⟨S2x3200000, .i32⟩ : BufTy).Contents (Elt Ideal))
  (x2 : (⟨S512x16, .f32⟩ : BufTy).Contents (Elt Ideal)) (x3 : (⟨S16, .f32⟩ : BufTy).Contents (Elt Ideal))
  (x4 : (⟨S16x7, .f32⟩ : BufTy).Contents (Elt Ideal)) (x5 : (⟨S7, .f32⟩ : BufTy).Contents (Elt Ideal))

/-- The scale vector. -/
local notation "DINV" => val_main_v16 (F := Ideal) x1
/-- The gathers' start words: the source words. -/
local notation "SW" => val_main_v22 (F := Ideal) x1
/-- The destination words the weights are gathered at. -/
local notation "DWR" => val_main_v29 (F := Ideal) x1
/-- The scatters' index words: the destination words. -/
local notation "DW" => val_main_v44 (F := Ideal) x1

/-! ## The index words the program computes again -/

/-- The first row gather's start words are the source words. -/
theorem v39_eq : val_main_v39 (F := Ideal) x1 = SW := rfl
/-- The second row gather's start words are the source words. -/
theorem v57_eq : val_main_v57 (F := Ideal) x1 = SW := rfl
/-- The second scatter's index words are the destination words. -/
theorem v62_eq : val_main_v62 (F := Ideal) x1 = DW := rfl

/-! ## The edge weights -/

/-- The weight of edge e: the scale at its clamped source times the scale at its clamped destination. -/
theorem v31_at (e : Fin 3300000) : val_main_v31 (F := Ideal) x1 (ix1 e) = Gcn.edgeNorm DINV SW DWR e := by
  rw [val_main_v31_apply]
  unfold val_main_v23 val_main_v30
  rw [gather_vec_apply (by decide) gather_S100000_S3300000x1_S3300000_n_0_n_n_0_1_1
      Facts₀.gather_S100000_S3300000x1_S3300000_n_0_n_n_0_1_1_wf rfl,
    gather_vec_apply (by decide) gather_S100000_S3300000x1_S3300000_n_0_n_n_0_1_1
      Facts₀.gather_S100000_S3300000x1_S3300000_n_0_n_n_0_1_1_wf rfl]
  rfl

/-! ## The first layer -/

/-- Entry (n, k) of the first product is the sum over l of x(n, l) · W₁(l, k). -/
theorem v32_at (n : Fin 100000) (k : Fin 16) : val_main_v32 (F := Ideal) x0 x2 (ix2 n k) = Gcn.xw x0 x2 n k := by
  rw [val_main_v32_apply]
  unfold Gcn.xw
  refine Finset.sum_congr rfl fun l _ => ?_
  rw [lidx32, ridx32]

/-- The update of edge e at column k: its weight times the first product's entry at its clamped source. -/
theorem v42_at (e : Fin 3300000) (k : Fin 16) :
    val_main_v42 (F := Ideal) x0 x1 x2 (ix2 e k)
      = Gcn.edgeNorm DINV SW DWR e * Gcn.xw x0 x2 (Gcn.clampRow 100000 (by decide) (SW (ix2 e 0))) k := by
  rw [val_main_v42_apply, val_main_v41_apply, val_main_v33_apply, idx33_41, v31_at]
  unfold val_main_v40
  rw [gather_rows_apply (by decide) gather_S100000x16_S3300000x1_S3300000x16_1_0_n_n_0_1_116
      Facts₀.gather_S100000x16_S3300000x1_S3300000x16_1_0_n_n_0_1_116_wf rfl, v39_eq, v32_at]
  rfl

/-- The first aggregation at (n, k): the sum over the edges sent to n of their updates. -/
theorem v45_at (n : Fin 100000) (k : Fin 16) :
    val_main_v45 (F := Ideal) x0 x1 x2 (ix2 n k) = Gcn.normAdd (Gcn.xw x0 x2) DINV SW DWR DW n k := by
  unfold val_main_v45
  rw [scatterAdd_rows_apply scatter_S100000x16_S3300000x1_S3300000x16_1_0_0_1
      Facts₀.scatter_S100000x16_S3300000x1_S3300000x16_1_0_0_1_wf rfl,
    val_main_v43_apply, val_main_cst_9_apply, zeroWord, zero_add]
  unfold Gcn.normAdd
  refine Finset.sum_congr rfl fun e _ => ?_
  rw [v42_at]

/-- The first aggregation plus the bias. -/
theorem v48_at (n : Fin 100000) (k : Fin 16) :
    val_main_v48 (F := Ideal) x0 x1 x2 x3 (ix2 n k) = Gcn.normAdd (Gcn.xw x0 x2) DINV SW DWR DW n k + x3 (ix1 k) := by
  rw [val_main_v48_apply, v45_at, val_main_v47_apply, val_main_v46_apply, idx46_47]
  rfl

/-- The hidden layer: the relu of that. -/
theorem v49_at (n : Fin 100000) (k : Fin 16) :
    val_main_v49 (F := Ideal) x0 x1 x2 x3 (ix2 n k) = Gcn.refHidden x0 x2 x3 DINV SW DWR DW n k := by
  rw [val_main_v49_apply, v48_at, val_main_call1_v0_apply, val_main_call1_cst_apply, zeroWord]
  rfl

/-! ## The second layer -/

/-- Entry (n, j) of the second product is the sum over k of hidden(n, k) · W₂(k, j). -/
theorem v50_at (n : Fin 100000) (j : Fin 7) :
    val_main_v50 (F := Ideal) x0 x1 x2 x3 x4 (ix2 n j) = Gcn.refHW x0 x2 x3 x4 DINV SW DWR DW n j := by
  rw [val_main_v50_apply]
  unfold Gcn.refHW
  refine Finset.sum_congr rfl fun k _ => ?_
  rw [lidx50, ridx50, v49_at]

/-- The update of edge e at column j: its weight times the second product's entry at its clamped source. -/
theorem v60_at (e : Fin 3300000) (j : Fin 7) :
    val_main_v60 (F := Ideal) x0 x1 x2 x3 x4 (ix2 e j)
      = Gcn.edgeNorm DINV SW DWR e
        * Gcn.refHW x0 x2 x3 x4 DINV SW DWR DW (Gcn.clampRow 100000 (by decide) (SW (ix2 e 0))) j := by
  rw [val_main_v60_apply, val_main_v59_apply, val_main_v51_apply, idx51_59, v31_at]
  unfold val_main_v58
  rw [gather_rows_apply (by decide) gather_S100000x7_S3300000x1_S3300000x7_1_0_n_n_0_1_17
      Facts₀.gather_S100000x7_S3300000x1_S3300000x7_1_0_n_n_0_1_17_wf rfl, v57_eq, v50_at]
  rfl

/-- The second aggregation at (p, q): the sum over the edges sent to p of their updates. -/
theorem v63_at (p : Fin 100000) (q : Fin 7) :
    val_main_v63 (F := Ideal) x0 x1 x2 x3 x4 (ix2 p q)
      = Gcn.normAdd (Gcn.refHW x0 x2 x3 x4 DINV SW DWR DW) DINV SW DWR DW p q := by
  unfold val_main_v63
  rw [scatterAdd_rows_apply scatter_S100000x7_S3300000x1_S3300000x7_1_0_0_1
      Facts₀.scatter_S100000x7_S3300000x1_S3300000x7_1_0_0_1_wf rfl,
    val_main_v61_apply, val_main_cst_12_apply, zeroWord, zero_add, v62_eq]
  unfold Gcn.normAdd
  refine Finset.sum_congr rfl fun e _ => ?_
  rw [v60_at]

/-- The logits: the second aggregation plus the bias. -/
theorem v66_at (p : Fin 100000) (q : Fin 7) :
    val_main_v66 (F := Ideal) x0 x1 x2 x3 x4 x5 (ix2 p q) = Gcn.refLogits x0 x2 x3 x4 x5 DINV SW DWR DW p q := by
  rw [val_main_v66_apply, v63_at, val_main_v65_apply, val_main_v64_apply, idx64_65]
  rfl

/-! ## The log-softmax -/

/-- From the bottom element, the reduce with a maximum body along a row of seven is the row's maximum. -/
theorem rowMax_read (y : (⟨S100000x7, .f32⟩ : BufTy).Contents (Elt Ideal)) (p : Fin 100000) :
    Host.reduce (FloatOps.maximumf (F := Ideal) (φ := .f32)) y (val_main_call2_cst (F := Ideal))
        reducesTo_S100000x7_S100000_d1 h_S_ (ix1 p)
      = Gcn.rowMax (fun j => y (ix2 p j)) := by
  have h : S100000x7.Reduces [1] S100000 := by decide
  refine (Host.reduce_eq_fold_single (FloatOps.maximumf (F := Ideal) (φ := .f32)) y _ reducesTo_S100000x7_S100000_d1 h h_S_
    (ix1 p)).trans ?_
  have hl : ∀ k : Fin 7, h.lift (ix1 p) k = ix2 p k := fun k =>
    funext fun c => Fin.ext (by match c with | ⟨0, _⟩ => rfl | ⟨1, _⟩ => rfl)
  have hf : (y ∘ h.lift (ix1 p)) = fun j : Fin 7 => y (ix2 p j) := funext fun k => congrArg y (hl k)
  have hi : val_main_call2_cst (F := Ideal) (Shape.Idx.first h_S_) = (⊥ : EReal) := negInfWord
  rw [hi]
  unfold Gcn.rowMax
  exact congrArg (fun f => Finset.fold max (⊥ : EReal) f (Finset.univ : Finset (Fin 7))) hf

/-- The logits' row p, as a function of the column. -/
local notation "Z" p => fun j : Fin 7 => Gcn.refLogits x0 x2 x3 x4 x5 DINV SW DWR DW p j

/-- The reduce is the logits' row maximum. -/
theorem c0_at (p : Fin 100000) : val_main_call2_v0 (F := Ideal) x0 x1 x2 x3 x4 x5 (ix1 p) = Gcn.rowMax (Z p) := by
  unfold val_main_call2_v0
  rw [rowMax_read]
  simp only [v66_at]

/-- Its maximum with the bottom element is itself. -/
theorem c2_at (p : Fin 100000) : val_main_call2_v2 (F := Ideal) x0 x1 x2 x3 x4 x5 (ix1 p) = Gcn.rowMax (Z p) := by
  rw [val_main_call2_v2_apply, val_main_call2_v1_apply, val_main_call2_cst_0_apply, negInfWord, c0_at]
  exact max_eq_right bot_le

/-- Spread along the row. -/
theorem c4_at (p : Fin 100000) (q : Fin 7) : val_main_call2_v4 (F := Ideal) x0 x1 x2 x3 x4 x5 (ix2 p q) = Gcn.rowMax (Z p) := by
  rw [val_main_call2_v4_apply, val_main_call2_v3_apply, idxc3_c4, c2_at]

/-- The shifted logits. -/
theorem c5_at (p : Fin 100000) (q : Fin 7) :
    val_main_call2_v5 (F := Ideal) x0 x1 x2 x3 x4 x5 (ix2 p q)
      = Gcn.refLogits x0 x2 x3 x4 x5 DINV SW DWR DW p q - Gcn.rowMax (Z p) := by
  rw [val_main_call2_v5_apply, v66_at, c4_at]
  rfl

/-- Their exponentials. -/
theorem c6_at (p : Fin 100000) (q : Fin 7) :
    val_main_call2_v6 (F := Ideal) x0 x1 x2 x3 x4 x5 (ix2 p q)
      = Ideal.exp (Gcn.refLogits x0 x2 x3 x4 x5 DINV SW DWR DW p q - Gcn.rowMax (Z p)) := by
  rw [val_main_call2_v6_apply, c5_at, Ideal.hostUnary_exp_def]

/-- The row sum of the exponentials. -/
theorem c7_at (p : Fin 100000) :
    val_main_call2_v7 (F := Ideal) x0 x1 x2 x3 x4 x5 (ix1 p)
      = ∑ j : Fin 7, Ideal.exp (Gcn.refLogits x0 x2 x3 x4 x5 DINV SW DWR DW p j - Gcn.rowMax (Z p)) := by
  rw [val_main_call2_v7_apply, val_main_call2_cst_1_apply, zeroWord, zero_add]
  refine Finset.sum_congr rfl fun k _ => ?_
  rw [idxc7, c6_at]

/-- Its logarithm, spread along the row. -/
theorem c10_at (p : Fin 100000) (q : Fin 7) :
    val_main_call2_v10 (F := Ideal) x0 x1 x2 x3 x4 x5 (ix2 p q)
      = Ideal.log (∑ j : Fin 7, Ideal.exp (Gcn.refLogits x0 x2 x3 x4 x5 DINV SW DWR DW p j - Gcn.rowMax (Z p))) := by
  rw [val_main_call2_v10_apply, val_main_call2_v9_apply, val_main_call2_v8_apply, idxc8_c10, c7_at,
    Ideal.hostUnary_log_def]

/-- THE RESULT AT (p, q): the log-softmax of the logits' row p, at q. -/
theorem v67_at (p : Fin 100000) (q : Fin 7) :
    val_main_v67 (F := Ideal) x0 x1 x2 x3 x4 x5 (ix2 p q) = Gcn.refOut x0 x2 x3 x4 x5 DINV SW DWR DW p q := by
  rw [val_main_v67_apply, c5_at, c10_at]
  rfl

/-- THE REFERENCE'S RESULT, as a function of the index. -/
theorem out_eq :
    val_main_v67 (F := Ideal) x0 x1 x2 x3 x4 x5
      = fun i => Gcn.refOut x0 x2 x3 x4 x5 DINV SW DWR DW (i 0) (i 1) := by
  funext i
  obtain ⟨p, q, rfl⟩ : ∃ p q, i = ix2 p q := ⟨i 0, i 1, eq_ix2 i⟩
  exact v67_at x0 x1 x2 x3 x4 x5 p q

end

end Cert.ReferenceIdeal.RefValue

end
-- ==== Proof.RefWords.lean ====
/-
  The reference's destination words. The program keeps each edge's destination word twice: raw, as the row the edge's
  update is added to, and wrapped (a negative word gets the node count added), as the position its weight is gathered
  at. On an edge whose raw word, read signed, is a node d, the word is not negative, so wrapping leaves it alone, and
  reading it clamped into the node range gives d again.
-/
import proofs.«181120_j12592844112334_2_alg».proof.Proof.RefRead
import proofs.«181120_j12592844112334_2_alg».proof.Proof.RefSpec
import Idealize.ShloMosaic.Lib.ValueIdx
import Idealize.ShloMosaic.Lib.Affine

noncomputable section

namespace Cert.ReferenceIdeal.RefWords

open Cert.ReferenceIdeal Cert.ReferenceIdeal.Gen Cert.ReferenceIdeal.ReadP Idealize.ShloMosaic Idealize.ShloMosaic.ValueIdx

/-- A word that, read signed, is a node d is not negative: wrapping keeps it, and clamped into `[0, 100000 − 1]` it
    is d. -/
theorem clampRow_wrap_of_toInt_eq (w : BitVec 32) (d : Fin 100000) (h : w.toInt = (d.val : ℤ)) :
    Gcn.clampRow 100000 (by decide) (Scalar.select (IntOp.cmpi .slt w 0#32) (IntOp.addi w 100000#32) w) = d := by
  have hc : ¬IntOp.cmpi .slt w 0#32 = 1#1 := by
    rw [IntOp.cmpi_slt, BitVec.toInt_zero]
    omega
  rw [eq_zero_of_ne_one hc, select_zero]
  unfold Gcn.clampRow
  refine Fin.ext ?_
  have hd := d.isLt
  simp only
  omega

/-- ON AN EDGE SENT TO NODE d, the wrapped destination word read clamped is d too. -/
theorem wrapped_dst (x1 : (⟨S2x3200000, .i32⟩ : BufTy).Contents (Elt Ideal)) (e : Fin 3300000) (d : Fin 100000)
    (h : (val_main_v44 (F := Ideal) x1 (ix2 e 0)).toInt = (d.val : ℤ)) :
    Gcn.clampRow 100000 (by decide) (val_main_v29 (F := Ideal) x1 (ix2 e 0)) = d := by
  have i44 : idx_main_v44 (ix2 e (0 : Fin 1)) = ix1 e := funext fun a => Fin.ext (by match a with | ⟨0, _⟩ => rfl)
  have i29 : idx_main_v29 (ix2 e (0 : Fin 1)) = ix1 e := funext fun a => Fin.ext (by match a with | ⟨0, _⟩ => rfl)
  rw [val_main_v44_apply, i44] at h
  rw [val_main_v29_apply, i29, val_main_v28_apply, val_main_v25_apply, val_main_v27_apply, val_main_v24_apply,
    val_main_c_5_apply, val_main_v26_apply, val_main_c_6_apply]
  generalize val_main_v6 (F := Ideal) x1 (ix1 e) = w at h ⊢
  exact clampRow_wrap_of_toInt_eq w d h

end Cert.ReferenceIdeal.RefWords

end
-- ==== Proof.Equiv.lean ====
/-
  The two arrangements compute one function.

  With every scale, weight, bias and input entry a real number: scaling the projected rows by their own node's scale,
  gathering and adding them per destination, and scaling the sum by the destination's scale is the same as adding up,
  per destination, the rows weighted by the product of the two endpoints' scales — the destination's scale moves
  across the finite real sum, and on an edge that arrives at node d the (clamped) destination IS d. Applied once per
  layer, with the relu, the projections, the biases and the log-softmax the same on both sides.
-/
import proofs.«181120_j12592844112334_2_alg».proof.Proof.RefSpec
import proofs.«181120_j12592844112334_2_alg».proof.Proof.Law

set_option maxRecDepth 16384

noncomputable section

namespace Cert.Gcn

open Idealize.ShloMosaic Idealize.ShloMosaic.ValueIdx
open scoped BigOperators

/-- Matrices that agree entry by entry aggregate alike. -/
theorem gatherAdd_congr {D : ℕ} {h h' : Mat 100000 D} (hh : ∀ n q, h (ix2 n q) = h' (ix2 n q)) (srcW dstW : EdgeWords)
    (d : Fin 100000) (q : Fin D) : gatherAdd h srcW dstW d q = gatherAdd h' srcW dstW d q := by
  unfold gatherAdd
  refine Finset.sum_congr rfl fun e _ => ?_
  split
  · rw [hh]
  · rfl

section

variable (dinv : Vec 100000) (dv : Mat 100000 1) (srcW dstWr dstW : EdgeWords)
  (hdv : ∀ n, dv (ix2 n 0) = dinv (ix1 n))
  (hwrap : ∀ (e : Fin 3300000) (d : Fin 100000), (dstW (ix2 e 0)).toInt = (d.val : ℤ) →
    clampRow 100000 (by decide) (dstWr (ix2 e 0)) = d)
  (hdinv : ∀ i, IsReal (dinv i))

include hdv hwrap hdinv in
/-- One aggregation, either layer: the destination's scale times the gathered-and-added source-scaled rows is
    the normalized aggregation of the unscaled rows. -/
theorem scale_gatherAdd {D : ℕ} (h : Fin 100000 → Fin D → EReal) (hh : ∀ n q, IsReal (h n q)) (d : Fin 100000) (q : Fin D) :
    dv (ix2 d 0) * gatherAdd (fun i : (⟨2, ![100000, D]⟩ : Shape).Idx => h (i 0) (i 1) * dv (ix2 (i 0) 0)) srcW dstW d q
      = normAdd h dinv srcW dstWr dstW d q := by
  unfold gatherAdd normAdd
  have key := scale_sum (fun e : Fin 3300000 => (dstW (ix2 e 0)).toInt = (d.val : ℤ)) (dv (ix2 d 0))
    (fun e => h (clampRow 100000 (by decide) (srcW (ix2 e 0))) q)
    (fun e => dv (ix2 (clampRow 100000 (by decide) (srcW (ix2 e 0))) 0))
    (fun e => dinv (ix1 (clampRow 100000 (by decide) (dstWr (ix2 e 0)))))
    (by rw [hdv]; exact hdinv _) (fun e => hh _ _) (fun e => by rw [hdv]; exact hdinv _)
    (fun e he => by rw [hwrap e d he, hdv])
  refine key.trans (Finset.sum_congr rfl fun e _ => ?_)
  unfold edgeNorm
  rw [hdv]

end

section

variable (x : Mat 100000 512) (w1 : Mat 512 16) (w2 : Mat 16 7) (b1 : Vec 16) (b2 : Vec 7) (b1r : Mat 1 16) (b2r : Mat 1 7)
  (dinv : Vec 100000) (dv : Mat 100000 1) (srcW dstWr dstW : EdgeWords)
  (a1 : Mat 100000 16) (a2 : Mat 100000 7)
  (hb1 : ∀ k, b1r (ix2 0 k) = b1 (ix1 k)) (hb2 : ∀ q, b2r (ix2 0 q) = b2 (ix1 q))
  (hdv : ∀ n, dv (ix2 n 0) = dinv (ix1 n))
  (hwrap : ∀ (e : Fin 3300000) (d : Fin 100000), (dstW (ix2 e 0)).toInt = (d.val : ℤ) →
    clampRow 100000 (by decide) (dstWr (ix2 e 0)) = d)
  (hx : ∀ i, IsReal (x i)) (hw1 : ∀ i, IsReal (w1 i)) (hw2 : ∀ i, IsReal (w2 i)) (hb1' : ∀ i, IsReal (b1 i))
  (hdinv : ∀ i, IsReal (dinv i))
  (ha1 : ∀ d k, a1 (ix2 d k) = gatherAdd (fun i : (⟨2, ![100000, 16]⟩ : Shape).Idx => proj1 x w1 dv (i 0) (i 1)) srcW dstW d k)
  (ha2 : ∀ d q, a2 (ix2 d q) = gatherAdd (fun i : (⟨2, ![100000, 7]⟩ : Shape).Idx => proj2 a1 dv b1r w2 (i 0) (i 1)) srcW dstW d q)

include hx hw1 in
theorem isReal_xw (n : Fin 100000) (k : Fin 16) : IsReal (xw x w1 n k) :=
  isReal_sum _ _ fun l _ => (hx _).mul (hw1 _)

include hx hw1 hdinv in
theorem isReal_normAdd {D : ℕ} (h : Fin 100000 → Fin D → EReal) (hh : ∀ n q, IsReal (h n q)) (d : Fin 100000) (q : Fin D) :
    IsReal (normAdd h dinv srcW dstWr dstW d q) :=
  isReal_sum _ _ fun e _ => IsReal.ite (((hdinv _).mul (hdinv _)).mul (hh _ _)) isReal_zero

include hb1 hdv hwrap hx hw1 hdinv ha1 in
/-- The hidden layers agree. -/
theorem hidden_eq (n : Fin 100000) (k : Fin 16) :
    hidden a1 dv b1r n k = refHidden x w1 b1 dinv srcW dstWr dstW n k := by
  unfold hidden refHidden
  rw [ha1, hb1]
  have := scale_gatherAdd dinv dv srcW dstWr dstW hdv hwrap hdinv (xw x w1) (isReal_xw x w1 hx hw1) n k
  rw [← this]
  rfl

include hb1 hdv hwrap hx hw1 hw2 hb1' hdinv ha1 in
theorem isReal_refHW (n : Fin 100000) (j : Fin 7) : IsReal (refHW x w1 b1 w2 dinv srcW dstWr dstW n j) :=
  isReal_sum _ _ fun k _ =>
    (IsReal.max ((isReal_normAdd x w1 dinv srcW dstWr dstW hx hw1 hdinv (xw x w1) (isReal_xw x w1 hx hw1) n k).add (hb1' _)) isReal_zero).mul (hw2 _)

include hb1 hb2 hdv hwrap hx hw1 hw2 hb1' hdinv ha1 ha2 in
/-- The logits agree. -/
theorem logits_eq (p : Fin 100000) (q : Fin 7) :
    logits a2 dv b2r p q = refLogits x w1 b1 w2 b2 dinv srcW dstWr dstW p q := by
  unfold logits refLogits
  rw [ha2, hb2]
  have := scale_gatherAdd dinv dv srcW dstWr dstW hdv hwrap hdinv (refHW x w1 b1 w2 dinv srcW dstWr dstW)
    (isReal_refHW x w1 w2 b1 b1r dinv dv srcW dstWr dstW a1 hb1 hdv hwrap hx hw1 hw2 hb1' hdinv ha1) p q
  rw [← this]
  refine congrArg (fun t => dv (ix2 p 0) * t + b2 (ix1 q)) (gatherAdd_congr (fun n j => ?_) srcW dstW p q)
  show proj2 a1 dv b1r w2 n j = refHW x w1 b1 w2 dinv srcW dstWr dstW n j * dv (ix2 n 0)
  unfold proj2 refHW
  refine congrArg (· * dv (ix2 n 0)) (Finset.sum_congr rfl fun k _ => ?_)
  rw [hidden_eq x w1 b1 b1r dinv dv srcW dstWr dstW a1 hb1 hdv hwrap hx hw1 hdinv ha1]

include hb1 hb2 hdv hwrap hx hw1 hw2 hb1' hdinv ha1 ha2 in
/-- The results agree. -/
theorem out_eq (p : Fin 100000) (q : Fin 7) :
    outStage a2 dv b2r p q = refOut x w1 b1 w2 b2 dinv srcW dstWr dstW p q := by
  unfold outStage refOut
  have : (fun j => logits a2 dv b2r p j) = fun j => refLogits x w1 b1 w2 b2 dinv srcW dstWr dstW p j :=
    funext fun j => logits_eq x w1 w2 b1 b2 b1r b2r dinv dv srcW dstWr dstW a1 a2 hb1 hb2 hdv hwrap hx hw1 hw2 hb1' hdinv ha1 ha2 p j
  rw [this]

end

end Cert.Gcn

end
-- ==== Proof.Bridge.lean ====
/-
  The idealized kernel and the idealized reference end with one result.

  The kernel's run ends with its result array at the output stage of the second aggregation (the boundary fold read
  through the three grids' stage functions); the reference's run ends at its own composed term, read index by index
  as log-softmax of its logits. Both are functions of the same argument arrays: the edge words, the degrees and the
  scales are the same terms on the two sides, every float input is a real number under the precondition, and then
  the two arrangements of the normalized aggregation agree.
-/
import proofs.«181120_j12592844112334_2_alg».proof.Defs
import proofs.«181120_j12592844112334_2_alg».proof.Proof.Gen.Pre_finite_inputs
import proofs.«181120_j12592844112334_2_alg».proof.Proof.Gen.Kernel
import proofs.«181120_j12592844112334_2_alg».proof.Proof.Gen.Kernel.Frame
import proofs.«181120_j12592844112334_2_alg».proof.Proof.Gen.KernelIdeal
import proofs.«181120_j12592844112334_2_alg».proof.Proof.Gen.ReferenceIdeal
import proofs.«181120_j12592844112334_2_alg».proof.Proof.KernelRun
import proofs.«181120_j12592844112334_2_alg».proof.Proof.KernelGlue
import proofs.«181120_j12592844112334_2_alg».proof.Proof.KernelValue
import proofs.«181120_j12592844112334_2_alg».proof.Proof.Region0
import proofs.«181120_j12592844112334_2_alg».proof.Proof.Region1
import proofs.«181120_j12592844112334_2_alg».proof.Proof.Region2
import proofs.«181120_j12592844112334_2_alg».proof.Proof.RefRun
import proofs.«181120_j12592844112334_2_alg».proof.Proof.RefRead
import proofs.«181120_j12592844112334_2_alg».proof.Proof.RefValue
import proofs.«181120_j12592844112334_2_alg».proof.Proof.RefWords
import proofs.«181120_j12592844112334_2_alg».proof.Proof.Equiv
import proofs.«181120_j12592844112334_2_alg».proof.Proof.Finite

set_option maxRecDepth 16384

noncomputable section

namespace Cert.Proof.Bridge

open Idealize.ShloMosaic Idealize.ShloMosaic.TcCoe Idealize.ShloMosaic.ValueIdx Idealize.SL.Sem
open Cert.KernelIdeal.Glue

section

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The kernel's edge list buffer, as the reference's stages take it. -/
abbrev edges : (⟨Cert.ReferenceIdeal.S2x3200000, .i32⟩ : BufTy).Contents (Elt Ideal) :=
  m ((c.tc : Thread Cert.KernelIdeal.nD Cert.KernelIdeal.τ).loc Cert.KernelIdeal.main_arg1)

/-- The gathers' start words are one term on the two sides. -/
theorem srcIdx_eq : srcIdx m c = Cert.ReferenceIdeal.ReadP.val_main_v22 (F := Ideal) (edges m c) := rfl

/-- The scatters' index words are one term on the two sides. -/
theorem dstIdx_eq : dstIdx m c = Cert.ReferenceIdeal.ReadP.val_main_v44 (F := Ideal) (edges m c) := rfl

/-- The scales are one term on the two sides. -/
theorem dinvVec_eq : dinvVec m c = Cert.ReferenceIdeal.ReadP.val_main_v16 (F := Ideal) (edges m c) := rfl

/-- Under the precondition the kernel's result function is the reference's, at the same argument arrays. -/
theorem kernel_eq_ref
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1) :
    (fun i : (⟨2, ![100000, 7]⟩ : Shape).Idx => Gcn.outStage (agg2 m c) (dinvCol m c) (b2Row m c) (i 0) (i 1))
      = fun i => Gcn.refOut
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (Cert.ReferenceIdeal.ReadP.val_main_v16 (F := Ideal) (edges m c))
          (Cert.ReferenceIdeal.ReadP.val_main_v22 (F := Ideal) (edges m c))
          (Cert.ReferenceIdeal.ReadP.val_main_v29 (F := Ideal) (edges m c))
          (Cert.ReferenceIdeal.ReadP.val_main_v44 (F := Ideal) (edges m c)) (i 0) (i 1) := by
  obtain ⟨hx0, hx2, hx3, hx4, hx5⟩ := Cert.Finite.reals_of_pre _ _ _ _ _ _ hpre
  funext i
  refine Gcn.out_eq _ _ _ _ _ (b1Row m c) (b2Row m c) _ (dinvCol m c) _ _ _ (agg1 m c) (agg2 m c)
    (fun k => Cert.KernelIdeal.KValue.b1Row_apply m c k) (fun q => Cert.KernelIdeal.KValue.b2Row_apply m c q)
    (fun n => by rw [Cert.KernelIdeal.KValue.dinvCol_apply, dinvVec_eq])
    (fun e d h => Cert.ReferenceIdeal.RefWords.wrapped_dst (edges m c) e d h)
    hx0 hx2 hx4 hx3
    (fun j => by rw [← dinvVec_eq]; exact Cert.KernelIdeal.KValue.isReal_dinvVec m c j)
    (fun d k => by rw [Cert.KernelIdeal.KValue.agg1_apply, srcIdx_eq, dstIdx_eq]; rfl)
    (fun d q => by rw [Cert.KernelIdeal.KValue.agg2_apply, srcIdx_eq, dstIdx_eq]; rfl)
    (i 0) (i 1)

end

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments the two idealized programs both run and end with equal results. -/
theorem algebraic : Cert.algebraic_KernelIdeal_ReferenceIdeal := by
  intro m ρ m' ρ' hpre hagree
  refine ⟨fun c => fun i => Gcn.outStage (agg2 m c) (dinvCol m c) (b2Row m c) (i 0) (i 1), ?_, ?_⟩
  · exact (θ_run Cert.KernelIdeal.defs _ _).mono
      (fun r h c => ⟨(h c).1.trans (result_eq m ρ c
        (fun V c => Cert.KernelIdeal.Region0.region0 V c) (fun V c => Cert.KernelIdeal.Region1.region1 V c)
        (fun V c => Cert.KernelIdeal.Region2.region2 V c)), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v67_eq, (hagree c).1, (hagree c).2.1, (hagree c).2.2.1, (hagree c).2.2.2.1,
      (hagree c).2.2.2.2.1, (hagree c).2.2.2.2.2, Cert.ReferenceIdeal.RefValue.out_eq]
    exact (kernel_eq_ref m c (hpre c)).symm

end Cert.Proof.Bridge

end
-- ==== Proof.lean ====
/-
  The certificate of a two-layer graph convolution: three Pallas grids (two projections fed in bf16 and an output
  stage) with the gather and scatter-add between them on the host, against the plain reference.

  At the ideal values both programs compute, for every node p and class q,
      log-softmax_q ( Σ_{e → p} s(src e) s(p) · H(src e, ·) W₂ + b₂ ),   H = relu ( Σ_{e → ·} s(src e) s(·) · (x W₁)(src e) + b₁ ),
  s the inverse square root of the degree (self loops added). The kernel applies s(src e) inside the projection that
  feeds the gather and s(p) inside the grid that consumes the sum; the reference multiplies every message by
  s(src e) · s(dst e). The two agree because every quantity is a real number under the precondition (finite inputs;
  a degree is a count) and a destination that receives an edge is its own clamped index.

  The three frames are the generated ones (the reference's from its run); the idealization rewrote nothing, so
  `preserves` is trivial; `algebraic` is Proof/Bridge.lean.
-/
import proofs.«181120_j12592844112334_2_alg».proof.Defs
import proofs.«181120_j12592844112334_2_alg».proof.Proof.Gen.Kernel
import proofs.«181120_j12592844112334_2_alg».proof.Proof.Gen.Kernel.Skeleton
import proofs.«181120_j12592844112334_2_alg».proof.Proof.Gen.Kernel.Launch
import proofs.«181120_j12592844112334_2_alg».proof.Proof.Gen.Kernel.Points
import proofs.«181120_j12592844112334_2_alg».proof.Proof.Gen.Kernel.Frame
import proofs.«181120_j12592844112334_2_alg».proof.Proof.Gen.KernelIdeal
import proofs.«181120_j12592844112334_2_alg».proof.Proof.Gen.KernelIdeal.Skeleton
import proofs.«181120_j12592844112334_2_alg».proof.Proof.Gen.KernelIdeal.Launch
import proofs.«181120_j12592844112334_2_alg».proof.Proof.Gen.KernelIdeal.Points
import proofs.«181120_j12592844112334_2_alg».proof.Proof.Gen.KernelIdeal.Frame
import proofs.«181120_j12592844112334_2_alg».proof.Proof.Gen.ReferenceIdeal
import proofs.«181120_j12592844112334_2_alg».proof.Proof.Gen.Pre_finite_inputs
import proofs.«181120_j12592844112334_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Bridge.frame_k, Cert.Proof.Bridge.frame_ki, Cert.Proof.Bridge.frame_ri, trivial, Cert.Proof.Bridge.algebraic⟩

end Cert.Proof

end
